-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024x1024 : Shape := ⟨3, ![1, 1024, 1024]⟩
abbrev S1024 : Shape := ⟨1, ![1024]⟩
abbrev S64x1024 : Shape := ⟨2, ![64, 1024]⟩
abbrev S64 : Shape := ⟨1, ![64]⟩
abbrev S128x64 : Shape := ⟨2, ![128, 64]⟩
abbrev S128 : Shape := ⟨1, ![128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S64 .f32) (main_arg5 : FVec F S128x64 .f32) (main_arg6 : FVec F S128 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S1x1024x1024 .f32) (main_arg1 : FVec F S1024 .f32) (main_arg2 : FVec F S1024 .f32) (main_arg3 : FVec F S64x1024 .f32) (main_arg4 : FVec F S64 .f32) (main_arg5 : FVec F S128x64 .f32) (main_arg6 : FVec F S128 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_v13 main_v16
-- ==== Kernel.lean ====
abbrev S1x1024x1024 : Shape := ⟨3, ![1, 1024, 1024]⟩
abbrev S1024 : Shape := ⟨1, ![1024]⟩
abbrev S64x1024 : Shape := ⟨2, ![64, 1024]⟩
abbrev S64 : Shape := ⟨1, ![64]⟩
abbrev S128x64 : Shape := ⟨2, ![128, 64]⟩
abbrev S128 : Shape := ⟨1, ![128]⟩
abbrev S1x1024 : Shape := ⟨2, ![1, 1024]⟩
abbrev S1024x64 : Shape := ⟨2, ![1024, 64]⟩
abbrev S1x64 : Shape := ⟨2, ![1, 64]⟩
abbrev S128x32 : Shape := ⟨2, ![128, 32]⟩
abbrev S32x128 : Shape := ⟨2, ![32, 128]⟩
abbrev S1x128 : Shape := ⟨2, ![1, 128]⟩
abbrev S1x1024x32 : Shape := ⟨3, ![1, 1024, 32]⟩
abbrev S1x1024x128 : Shape := ⟨3, ![1, 1024, 128]⟩
abbrev S1x128x1024 : Shape := ⟨3, ![1, 128, 1024]⟩
abbrev S1x128x32 : Shape := ⟨3, ![1, 128, 32]⟩
abbrev S1x128x128 : Shape := ⟨3, ![1, 128, 128]⟩
abbrev S1x128x1 : Shape := ⟨3, ![1, 128, 1]⟩
abbrev S1x1x1024 : Shape := ⟨3, ![1, 1, 1024]⟩
abbrev S128x1024 : Shape := ⟨2, ![128, 1024]⟩
abbrev S128x128 : Shape := ⟨2, ![128, 128]⟩
abbrev S1x1024x1024x128 : Shape := ⟨4, ![1, 1024, 1024, 128]⟩
abbrev S1x128x128x128 : Shape := ⟨4, ![1, 128, 128, 128]⟩
abbrev S128x1x32 : Shape := ⟨3, ![128, 1, 32]⟩
abbrev S128x128x32 : Shape := ⟨3, ![128, 128, 32]⟩
abbrev S16384x32 : Shape := ⟨2, ![16384, 32]⟩
abbrev S16384x128 : Shape := ⟨2, ![16384, 128]⟩
abbrev S128x128x128 : Shape := ⟨3, ![128, 128, 128]⟩
abbrev S128x1x128 : Shape := ⟨3, ![128, 1, 128]⟩
abbrev S1x1x128 : Shape := ⟨3, ![1, 1, 128]⟩

abbrev nBuf : Space → Nat
  | .hbm => 21
  | .vmem => 27
  | .smem => 0
  | _ => 0

abbrev bufTy : (tb : Table) → Fin (tcTables nBuf tb) → BufTy
  | .hbm, ⟨0, _⟩ => ⟨S1x1024x1024, .f32⟩
  | .hbm, ⟨1, _⟩ => ⟨S1024, .f32⟩
  | .hbm, ⟨2, _⟩ => ⟨S1024, .f32⟩
  | .hbm, ⟨3, _⟩ => ⟨S64x1024, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S1x1024, .f32⟩
  | .hbm, ⟨8, _⟩ => ⟨S1x1024, .f32⟩
  | .hbm, ⟨9, _⟩ => ⟨S1024x64, .f32⟩
  | .hbm, ⟨10, _⟩ => ⟨S1x64, .f32⟩
  | .hbm, ⟨11, _⟩ => ⟨S128x32, .f32⟩
  | .hbm, ⟨12, _⟩ => ⟨S32x128, .f32⟩
  | .hbm, ⟨13, _⟩ => ⟨S128x32, .f32⟩
  | .hbm, ⟨14, _⟩ => ⟨S32x128, .f32⟩
  | .hbm, ⟨15, _⟩ => ⟨S1x128, .f32⟩
  | .hbm, ⟨16, _⟩ => ⟨S1x1024x32, .f32⟩
  | .hbm, ⟨17, _⟩ => ⟨S1x1024x32, .f32⟩
  | .hbm, ⟨18, _⟩ => ⟨S1x1024x128, .f32⟩
  | .hbm, ⟨19, _⟩ => ⟨S1x1024x128, .f32⟩
  | .hbm, ⟨20, _⟩ => ⟨S1x1024x1024x128, .f32⟩
  | .local _ .vmem, ⟨0, _⟩ => ⟨S1x128x1024, .f32⟩
  | .local _ .vmem, ⟨1, _⟩ => ⟨S1x128x1024, .f32⟩
  | .local _ .vmem, ⟨2, _⟩ => ⟨S1x1024, .f32⟩
  | .local _ .vmem, ⟨3, _⟩ => ⟨S1x1024, .f32⟩
  | .local _ .vmem, ⟨4, _⟩ => ⟨S1024x64, .f32⟩
  | .local _ .vmem, ⟨5, _⟩ => ⟨S1x64, .f32⟩
  | .local _ .vmem, ⟨6, _⟩ => ⟨S32x128, .f32⟩
  | .local _ .vmem, ⟨7, _⟩ => ⟨S1x128x32, .f32⟩
  | .local _ .vmem, ⟨8, _⟩ => ⟨S1x128x32, .f32⟩
  | .local _ .vmem, ⟨9, _⟩ => ⟨S1x128x32, .f32⟩
  | .local _ .vmem, ⟨10, _⟩ => ⟨S1x128x32, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x32, .f32⟩
  | .local _ .vmem, ⟨16, _⟩ => ⟨S1x128x32, .f32⟩
  | .local _ .vmem, ⟨17, _⟩ => ⟨S1x128x32, .f32⟩
  | .local _ .vmem, ⟨18, _⟩ => ⟨S1x128x32, .f32⟩
  | .local _ .vmem, ⟨19, _⟩ => ⟨S1x128x128, .f32⟩
  | .local _ .vmem, ⟨20, _⟩ => ⟨S1x128x128, .f32⟩
  | .local _ .vmem, ⟨21, _⟩ => ⟨S1x128x128, .f32⟩
  | .local _ .vmem, ⟨22, _⟩ => ⟨S1x128x128, .f32⟩
  | .local _ .vmem, ⟨23, _⟩ => ⟨S32x128, .f32⟩
  | .local _ .vmem, ⟨24, _⟩ => ⟨S1x128, .f32⟩
  | .local _ .vmem, ⟨25, _⟩ => ⟨S1x128x128x128, .f32⟩
  | .local _ .vmem, ⟨26, _⟩ => ⟨S1x128x128x128, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem5_0 : DmaSem sig := 24
abbrev cc1_sem6_0 : DmaSem sig := 25
abbrev cc1_sem6_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage1_0 : Fin 2 → Memref sig .tc .vmem S1x128x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x128x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S32x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x128x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S1024_S1x1024 : S1024.ShapeCasts S1x1024
  transposes_S64x1024_S1024x64_1_0 : S64x1024.Transposes [1, 0] S1024x64
  shapeCasts_S64_S1x64 : S64.ShapeCasts S1x64
  slices_S128x64_S128x32_0_0 : S128x64.Slices ![0, 0] S128x32
  transposes_S128x32_S32x128_1_0 : S128x32.Transposes [1, 0] S32x128
  slices_S128x64_S128x32_0_32 : S128x64.Slices ![0, 32] S128x32
  shapeCasts_S128_S1x128 : S128.ShapeCasts S1x128
  inb_S1x128x1024_S1x128x1024_0_0_0 : ∀ a, (![0, 0, 0] : Fin 3 → Nat) a + S1x128x1024.size a ≤ S1x128x1024.size a
  h_S1x128x1024 : 0 < S1x128x1024.numel
  reduces_S1x128x1024_S1x128 : S1x128x1024.Reduces [2] S1x128
  shapeCasts_S1x128_S1x128x1 : S1x128.ShapeCasts S1x128x1
  broadcasts_S1x128x1_S1x128x1024 : S1x128x1.Broadcasts S1x128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1024 : S1x1024.ShapeCasts S1x1x1024
  broadcasts_S1x1x1024_S1x128x1024 : S1x1x1024.Broadcasts S1x128x1024
  shapeCasts_S1x128x1024_S128x1024 : S1x128x1024.ShapeCasts S128x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  slices_S128x64_o0_0_S128x32 : S128x64.Slices ![0, 0] S128x32
  slices_S128x64_o0_32_S128x32 : S128x64.Slices ![0, 32] S128x32
  shapeCasts_S128x32_S1x128x32 : S128x32.ShapeCasts S1x128x32
  inb_S1x128x32_S1x128x32_0_0_0 : ∀ a, (![0, 0, 0] : Fin 3 → Nat) a + S1x128x32.size a ≤ S1x128x32.size a
  h_S1x128x32 : 0 < S1x128x32.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S128x128_S1x128x128 : S128x128.ShapeCasts S1x128x128
  inb_S1x128x128_S1x128x128_0_0_0 : ∀ a, (![0, 0, 0] : Fin 3 → Nat) a + S1x128x128.size a ≤ S1x128x128.size a
  h_S1x128x128 : 0 < S1x128x128.numel
  shapeCasts_S1x128x32_S1x128x32 : S1x128x32.ShapeCasts S1x128x32
  shapeCasts_S1x128x32_S128x32 : S1x128x32.ShapeCasts S128x32
  shapeCasts_S1x128x128_S1x128x128 : S1x128x128.ShapeCasts S1x128x128
  shapeCasts_S1x128x128_S128x128 : S1x128x128.ShapeCasts S128x128
  shapeCasts_S128x32_S128x1x32 : S128x32.ShapeCasts S128x1x32
  broadcasts_S1x128x32_S128x128x32 : S1x128x32.Broadcasts S128x128x32
  broadcasts_S128x1x32_S128x128x32 : S128x1x32.Broadcasts S128x128x32
  shapeCasts_S128x128x32_S16384x32 : S128x128x32.ShapeCasts S16384x32
  shapeCasts_S16384x128_S128x128x128 : S16384x128.ShapeCasts S128x128x128
  broadcasts_S1x128x128_S128x128x128 : S1x128x128.Broadcasts S128x128x128
  shapeCasts_S128x128_S128x1x128 : S128x128.ShapeCasts S128x1x128
  broadcasts_S128x1x128_S128x128x128 : S128x1x128.Broadcasts S128x128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S1x1x128_S128x128x128 : S1x1x128.Broadcasts S128x128x128
  shapeCasts_S128x128x128_S1x128x128x128 : S128x128x128.ShapeCasts S1x128x128x128
  inb_S1x128x128x128_S1x128x128x128_0_0_0_0 : ∀ a, (![0, 0, 0, 0] : Fin 4 → Nat) a + S1x128x128x128.size a ≤ S1x128x128x128.size a
  h_S1x128x128x128 : 0 < S1x128x128x128.numel
  dot_S128x1024_S1024x64_S128x64_1_0_0_1_n_n_wf : DotDims.WF S128x1024 S1024x64 S128x64 [1] [0] [0] [1] [] []
  dot_S128x32_S32x128_S128x128_1_0_0_1_n_n_wf : DotDims.WF S128x32 S32x128 S128x128 [1] [0] [0] [1] [] []
  dot_S16384x32_S32x128_S16384x128_1_0_0_1_n_n_wf : DotDims.WF S16384x32 S32x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S1x1024x1024.size a
  hwx0_0 : ∀ i : grid0.Coords, EltTy.bits .f32 = 32 ∨ (Rect.block (s := S1x1024x1024) S1x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x32.size a ≤ S1x1024x32.size a
  hwx0_6 : ∀ i : grid0.Coords, EltTy.bits .f32 = 32 ∨ (Rect.block (s := S1x1024x32) S1x128x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x32.size a ≤ S1x1024x32.size a
  hwx0_7 : ∀ i : grid0.Coords, EltTy.bits .f32 = 32 ∨ (Rect.block (s := S1x1024x32) S1x128x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x128.size a ≤ S1x1024x128.size a
  hwx0_8 : ∀ i : grid0.Coords, EltTy.bits .f32 = 32 ∨ (Rect.block (s := S1x1024x128) S1x128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128x128.size a ≤ S1x1024x128.size a
  hwx0_9 : ∀ i : grid0.Coords, EltTy.bits .f32 = 32 ∨ (Rect.block (s := S1x1024x128) S1x128x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x32.size a ≤ S1x1024x32.size a
  hwx1_0 : ∀ i : grid1.Coords, EltTy.bits .f32 = 32 ∨ (Rect.block (s := S1x1024x32) S1x128x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x32.size a ≤ S1x1024x32.size a
  hwx1_1 : ∀ i : grid1.Coords, EltTy.bits .f32 = 32 ∨ (Rect.block (s := S1x1024x32) S1x128x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128.size a ≤ S1x1024x128.size a
  hwx1_2 : ∀ i : grid1.Coords, EltTy.bits .f32 = 32 ∨ (Rect.block (s := S1x1024x128) S1x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x128.size a ≤ S1x1024x128.size a
  hwx1_3 : ∀ i : grid1.Coords, EltTy.bits .f32 = 32 ∨ (Rect.block (s := S1x1024x128) S1x128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x128.size a ≤ S32x128.size a
  hwx1_4 : ∀ i : grid1.Coords, EltTy.bits .f32 = 32 ∨ (Rect.block (s := S32x128) S32x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x128x128x128.size a ≤ S1x1024x1024x128.size a
  hwx1_6 : ∀ i : grid1.Coords, EltTy.bits .f32 = 32 ∨ (Rect.block (s := S1x1024x1024x128) S1x128x128x128.size (cc1_transform_6 i) (hinb1_6 i)).WholeWords (EltTy.packing .f32)

variable [Facts₀]

def dot_S128x1024_S1024x64_S128x64_1_0_0_1_n_n : DotDims S128x1024 S1024x64 S128x64 where
  lhsContracting := [1]
  rhsContracting := [0]
  lhsNonContracting := [0]
  rhsNonContracting := [1]
  lhsBatch := []
  rhsBatch := []
  wf := dot_S128x1024_S1024x64_S128x64_1_0_0_1_n_n_wf
def dot_S128x32_S32x128_S128x128_1_0_0_1_n_n : DotDims S128x32 S32x128 S128x128 where
  lhsContracting := [1]
  rhsContracting := [0]
  lhsNonContracting := [0]
  rhsNonContracting := [1]
  lhsBatch := []
  rhsBatch := []
  wf := dot_S128x32_S32x128_S128x128_1_0_0_1_n_n_wf
def dot_S16384x32_S32x128_S16384x128_1_0_0_1_n_n : DotDims S16384x32 S32x128 S16384x128 where
  lhsContracting := [1]
  rhsContracting := [0]
  lhsNonContracting := [0]
  rhsNonContracting := [1]
  lhsBatch := []
  rhsBatch := []
  wf := dot_S16384x32_S32x128_S16384x128_1_0_0_1_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S1x128x32.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S1x128x32.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_2) S1x128x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_3) S1x128x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v9_0) S1x128x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S1x128x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_2) S1x128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9_3) S1x128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S32x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x128x128x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1x1024x1024 : Shape := ⟨3, ![1, 1024, 1024]⟩
abbrev S1024 : Shape := ⟨1, ![1024]⟩
abbrev S64x1024 : Shape := ⟨2, ![64, 1024]⟩
abbrev S64 : Shape := ⟨1, ![64]⟩
abbrev S128x64 : Shape := ⟨2, ![128, 64]⟩
abbrev S128 : Shape := ⟨1, ![128]⟩
abbrev S_ : Shape := ⟨0, ![]⟩
abbrev S1x1024 : Shape := ⟨2, ![1, 1024]⟩
abbrev S1x1024x1 : Shape := ⟨3, ![1, 1024, 1]⟩
abbrev S1x1x1024 : Shape := ⟨3, ![1, 1, 1024]⟩
abbrev S1x1024x64 : Shape := ⟨3, ![1, 1024, 64]⟩
abbrev S1x1x64 : Shape := ⟨3, ![1, 1, 64]⟩
abbrev S1x1024x32 : Shape := ⟨3, ![1, 1024, 32]⟩
abbrev S1x1x1024x32 : Shape := ⟨4, ![1, 1, 1024, 32]⟩
abbrev S1x1024x1x32 : Shape := ⟨4, ![1, 1024, 1, 32]⟩
abbrev S1x1024x1024x32 : Shape := ⟨4, ![1, 1024, 1024, 32]⟩
abbrev S1x1024x1024x64 : Shape := ⟨4, ![1, 1024, 1024, 64]⟩
abbrev S1x1024x1024x128 : Shape := ⟨4, ![1, 1024, 1024, 128]⟩
abbrev S1x1x1x128 : Shape := ⟨4, ![1, 1, 1, 128]⟩

abbrev nBuf : Space → Nat
  | .hbm => 57
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024, .f32⟩
  | .hbm, ⟨2, _⟩ => ⟨S1024, .f32⟩
  | .hbm, ⟨3, _⟩ => ⟨S64x1024, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S_, .f32⟩
  | .hbm, ⟨8, _⟩ => ⟨S1x1024, .f32⟩
  | .hbm, ⟨9, _⟩ => ⟨S1x1024x1, .f32⟩
  | .hbm, ⟨10, _⟩ => ⟨S_, .f32⟩
  | .hbm, ⟨11, _⟩ => ⟨S1x1024x1, .f32⟩
  | .hbm, ⟨12, _⟩ => ⟨S1x1024x1, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S_, .f32⟩
  | .hbm, ⟨17, _⟩ => ⟨S1x1024, .f32⟩
  | .hbm, ⟨18, _⟩ => ⟨S1x1024x1, .f32⟩
  | .hbm, ⟨19, _⟩ => ⟨S_, .f32⟩
  | .hbm, ⟨20, _⟩ => ⟨S1x1024x1, .f32⟩
  | .hbm, ⟨21, _⟩ => ⟨S1x1024x1, .f32⟩
  | .hbm, ⟨22, _⟩ => ⟨S1x1024x1024, .f32⟩
  | .hbm, ⟨23, _⟩ => ⟨S1x1024x1024, .f32⟩
  | .hbm, ⟨24, _⟩ => ⟨S_, .f32⟩
  | .hbm, ⟨25, _⟩ => ⟨S1x1024x1, .f32⟩
  | .hbm, ⟨26, _⟩ => ⟨S1x1024x1, .f32⟩
  | .hbm, ⟨27, _⟩ => ⟨S1x1024x1, .f32⟩
  | .hbm, ⟨28, _⟩ => ⟨S1x1024x1024, .f32⟩
  | .hbm, ⟨29, _⟩ => ⟨S1x1024x1024, .f32⟩
  | .hbm, ⟨30, _⟩ => ⟨S1x1x1024, .f32⟩
  | .hbm, ⟨31, _⟩ => ⟨S1x1024x1024, .f32⟩
  | .hbm, ⟨32, _⟩ => ⟨S1x1024x1024, .f32⟩
  | .hbm, ⟨33, _⟩ => ⟨S1x1x1024, .f32⟩
  | .hbm, ⟨34, _⟩ => ⟨S1x1024x1024, .f32⟩
  | .hbm, ⟨35, _⟩ => ⟨S1x1024x1024, .f32⟩
  | .hbm, ⟨36, _⟩ => ⟨S1x1024x64, .f32⟩
  | .hbm, ⟨37, _⟩ => ⟨S1x1x64, .f32⟩
  | .hbm, ⟨38, _⟩ => ⟨S1x1024x64, .f32⟩
  | .hbm, ⟨39, _⟩ => ⟨S1x1024x64, .f32⟩
  | .hbm, ⟨40, _⟩ => ⟨S1x1024x32, .f32⟩
  | .hbm, ⟨41, _⟩ => ⟨S1x1024x32, .f32⟩
  | .hbm, ⟨42, _⟩ => ⟨S1x1x1024x32, .f32⟩
  | .hbm, ⟨43, _⟩ => ⟨S1x1024x1x32, .f32⟩
  | .hbm, ⟨44, _⟩ => ⟨S1x1024x1024x32, .f32⟩
  | .hbm, ⟨45, _⟩ => ⟨S1x1024x1024x32, .f32⟩
  | .hbm, ⟨46, _⟩ => ⟨S1x1024x1024x32, .f32⟩
  | .hbm, ⟨47, _⟩ => ⟨S1x1x1024x32, .f32⟩
  | .hbm, ⟨48, _⟩ => ⟨S1x1024x1x32, .f32⟩
  | .hbm, ⟨49, _⟩ => ⟨S1x1024x1024x32, .f32⟩
  | .hbm, ⟨50, _⟩ => ⟨S1x1024x1024x32, .f32⟩
  | .hbm, ⟨51, _⟩ => ⟨S1x1024x1024x32, .f32⟩
  | .hbm, ⟨52, _⟩ => ⟨S1x1024x1024x64, .f32⟩
  | .hbm, ⟨53, _⟩ => ⟨S1x1024x1024x128, .f32⟩
  | .hbm, ⟨54, _⟩ => ⟨S1x1x1x128, .f32⟩
  | .hbm, ⟨55, _⟩ => ⟨S1x1024x1024x128, .f32⟩
  | .hbm, ⟨56, _⟩ => ⟨S1x1024x1024x128, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]

class Facts₀ : Prop where
  reducesTo_S1x1024x1024_S1x1024_d2 : S1x1024x1024.ReducesTo [2] S1x1024
  h_S_ : 0 < S_.numel
  bcast_S1x1024_S1x1024x1_0_1 : S1x1024.BroadcastsInDim S1x1024x1 (![0, 1] : Fin 2 → Fin S1x1024x1.rank)
  bcast_S_S1x1024x1 : S_.BroadcastsInDim S1x1024x1 (![] : Fin 0 → Fin S1x1024x1.rank)
  bcast_S1x1024x1_S1x1024x1024_0_1_2 : S1x1024x1.BroadcastsInDim S1x1024x1024 (![0, 1, 2] : Fin 3 → Fin S1x1024x1024.rank)
  bcast_S1024_S1x1x1024_2 : S1024.BroadcastsInDim S1x1x1024 (![2] : Fin 1 → Fin S1x1x1024.rank)
  bcast_S1x1x1024_S1x1024x1024_0_1_2 : S1x1x1024.BroadcastsInDim S1x1024x1024 (![0, 1, 2] : Fin 3 → Fin S1x1024x1024.rank)
  bcast_S64_S1x1x64_2 : S64.BroadcastsInDim S1x1x64 (![2] : Fin 1 → Fin S1x1x64.rank)
  bcast_S1x1x64_S1x1024x64_0_1_2 : S1x1x64.BroadcastsInDim S1x1024x64 (![0, 1, 2] : Fin 3 → Fin S1x1024x64.rank)
  slices_S1x1024x64_S1x1024x32_0_0_0 : S1x1024x64.Slices ![0, 0, 0] S1x1024x32
  slices_S1x1024x64_S1x1024x32_0_0_32 : S1x1024x64.Slices ![0, 0, 32] S1x1024x32
  bcast_S1x1024x32_S1x1x1024x32_0_2_3 : S1x1024x32.BroadcastsInDim S1x1x1024x32 (![0, 2, 3] : Fin 3 → Fin S1x1x1024x32.rank)
  bcast_S1x1024x32_S1x1024x1x32_0_1_3 : S1x1024x32.BroadcastsInDim S1x1024x1x32 (![0, 1, 3] : Fin 3 → Fin S1x1024x1x32.rank)
  bcast_S1x1x1024x32_S1x1024x1024x32_0_1_2_3 : S1x1x1024x32.BroadcastsInDim S1x1024x1024x32 (![0, 1, 2, 3] : Fin 4 → Fin S1x1024x1024x32.rank)
  bcast_S1x1024x1x32_S1x1024x1024x32_0_1_2_3 : S1x1024x1x32.BroadcastsInDim S1x1024x1024x32 (![0, 1, 2, 3] : Fin 4 → Fin S1x1024x1024x32.rank)
  concatenates_S1x1024x1024x32_S1x1024x1024x32_S1x1024x1024x64_d3 : Shape.Concatenates [S1x1024x1024x32, S1x1024x1024x32] S1x1024x1024x64 3
  bcast_S128_S1x1x1x128_3 : S128.BroadcastsInDim S1x1x1x128 (![3] : Fin 1 → Fin S1x1x1x128.rank)
  bcast_S1x1x1x128_S1x1024x1024x128_0_1_2_3 : S1x1x1x128.BroadcastsInDim S1x1024x1024x128 (![0, 1, 2, 3] : Fin 4 → Fin S1x1024x1024x128.rank)
  dot_S1x1024x1024_S64x1024_S1x1024x64_2_1_01_0_n_n_wf : DotDims.WF S1x1024x1024 S64x1024 S1x1024x64 [2] [1] [0, 1] [0] [] []
  dot_S1x1024x1024x64_S128x64_S1x1024x1024x128_3_1_012_0_n_n_wf : DotDims.WF S1x1024x1024x64 S128x64 S1x1024x1024x128 [3] [1] [0, 1, 2] [0] [] []

variable [Facts₀]

def dot_S1x1024x1024_S64x1024_S1x1024x64_2_1_01_0_n_n : DotDims S1x1024x1024 S64x1024 S1x1024x64 where
  lhsContracting := [2]
  rhsContracting := [1]
  lhsNonContracting := [0, 1]
  rhsNonContracting := [0]
  lhsBatch := []
  rhsBatch := []
  wf := dot_S1x1024x1024_S64x1024_S1x1024x64_2_1_01_0_n_n_wf
def dot_S1x1024x1024x64_S128x64_S1x1024x1024x128_3_1_012_0_n_n : DotDims S1x1024x1024x64 S128x64 S1x1024x1024x128 where
  lhsContracting := [3]
  rhsContracting := [1]
  lhsNonContracting := [0, 1, 2]
  rhsNonContracting := [0]
  lhsBatch := []
  rhsBatch := []
  wf := dot_S1x1024x1024x64_S128x64_S1x1024x1024x128_3_1_012_0_n_n_wf

class Facts : Prop extends Facts₀ where

variable [Facts]
-- ==== Proof.KRun.lean ====
/-
  The idealized kernel's run with its result buffer named.

  The program is three segments: a stretch of host operations (reshapes, a transpose, two slices of the output
  weight), the layer-norm/projection region, and the pairwise region. Every weakly fair execution terminates with
  every unscoped buffer at the contents the last segment leaves; read at the result buffer this is what the
  pairwise region's write-backs leave there, and read at an argument it is the launch contents.
-/
import proofs.«162133_j3453153706645_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at what the pairwise region
    leaves in it and the seven argument arrays as launched. -/
theorem run_out : θ_run defs (onTc (τ := τ) (main (F := F))) ⟨m, fun _ => 0, ρ⟩ (fun r => ∀ c : Dev nD,
      r.2.mem ((c.tc : Thread nD τ).loc main_v10) = W3 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v10 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Whole

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.KHost.lean ====
/-
  The host operations before the two regions, read at an index.

  The scale, the shift, the projection bias and the output bias are given a leading unit axis; the projection
  weight is transposed; the output weight is cut into its first and second 32 columns and each half transposed.
  None of these changes a value: each entry of a prepared array is one entry of an argument array.
-/
import proofs.«162133_j3453153706645_2_alg».proof.Proof.Gen.KernelIdeal.Frame
import proofs.«162133_j3453153706645_2_alg».proof.Proof.LibMergeRows
import Idealize.ShloMosaic.Lib.StableHlo.Run
import Idealize.ShloMosaic.Lib.Pipeline.Value
import Idealize.ShloMosaic.Lib.ValueIdx

noncomputable section

namespace Cert.KernelIdeal.HostPart

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ) (ρ : Dev nD → PrngReg)

theorem v0_eq (c : Dev nD) : (V1 m ρ c main_v0 : S1x1024.Idx → Elt F .f32)
    = shapeCast S1x1024 (m ((c : Thread nD τ).loc main_arg1)) shapeCasts_S1024_S1x1024 := by
  dsimp only [V1, W1, W0, hostOps0]; after_results; try rfl

theorem v1_eq (c : Dev nD) : (V1 m ρ c main_v1 : S1x1024.Idx → Elt F .f32)
    = shapeCast S1x1024 (m ((c : Thread nD τ).loc main_arg2)) shapeCasts_S1024_S1x1024 := by
  dsimp only [V1, W1, W0, hostOps0]; after_results; try rfl

theorem v2_eq (c : Dev nD) : (V1 m ρ c main_v2 : S1024x64.Idx → Elt F .f32)
    = transpose S1024x64 [1, 0] (m ((c : Thread nD τ).loc main_arg3)) transposes_S64x1024_S1024x64_1_0 := by
  dsimp only [V1, W1, W0, hostOps0]; after_results; try rfl

theorem v3_eq (c : Dev nD) : (V1 m ρ c main_v3 : S1x64.Idx → Elt F .f32)
    = shapeCast S1x64 (m ((c : Thread nD τ).loc main_arg4)) shapeCasts_S64_S1x64 := by
  dsimp only [V1, W1, W0, hostOps0]; after_results; try rfl

theorem v5_eq (c : Dev nD) : (V1 m ρ c main_v5 : S32x128.Idx → Elt F .f32)
    = transpose S32x128 [1, 0] (extractStridedSlice S128x32 ![0, 0] (m ((c : Thread nD τ).loc main_arg5)) slices_S128x64_S128x32_0_0)
        transposes_S128x32_S32x128_1_0 := by
  dsimp only [V1, W1, W0, hostOps0]; after_results; try rfl

theorem v7_eq (c : Dev nD) : (V1 m ρ c main_v7 : S32x128.Idx → Elt F .f32)
    = transpose S32x128 [1, 0] (extractStridedSlice S128x32 ![0, 32] (m ((c : Thread nD τ).loc main_arg5)) slices_S128x64_S128x32_0_32)
        transposes_S128x32_S32x128_1_0 := by
  dsimp only [V1, W1, W0, hostOps0]; after_results; try rfl

theorem v8_eq (c : Dev nD) : (V1 m ρ c main_v8 : S1x128.Idx → Elt F .f32)
    = shapeCast S1x128 (m ((c : Thread nD τ).loc main_arg6)) shapeCasts_S128_S1x128 := by
  dsimp only [V1, W1, W0, hostOps0]; after_results; try rfl

theorem arg0_eq (c : Dev nD) : V1 m ρ c main_arg0 = m ((c : Thread nD τ).loc main_arg0) := by
  dsimp only [V1, W1, W0, hostOps0]; after_results; try rfl

/-! ## Entry by entry -/

theorem v0_apply (c : Dev nD) (k : Fin 1024) :
    V1 m ρ c main_v0 (ix2 (0 : Fin 1) k) = m ((c : Thread nD τ).loc main_arg1) (ix1 k) :=
  (congrFun (v0_eq m ρ c) _).trans (Cert.Lib.MergeRows.row_apply _ _ k)

theorem v1_apply (c : Dev nD) (k : Fin 1024) :
    V1 m ρ c main_v1 (ix2 (0 : Fin 1) k) = m ((c : Thread nD τ).loc main_arg2) (ix1 k) :=
  (congrFun (v1_eq m ρ c) _).trans (Cert.Lib.MergeRows.row_apply _ _ k)

theorem v2_apply (c : Dev nD) (k : Fin 1024) (d : Fin 64) :
    V1 m ρ c main_v2 (ix2 k d) = m ((c : Thread nD τ).loc main_arg3) (ix2 d k) :=
  (congrFun (v2_eq m ρ c) _).trans (Cert.Lib.MergeRows.transpose_apply _ _ k d)

theorem v3_apply (c : Dev nD) (d : Fin 64) :
    V1 m ρ c main_v3 (ix2 (0 : Fin 1) d) = m ((c : Thread nD τ).loc main_arg4) (ix1 d) :=
  (congrFun (v3_eq m ρ c) _).trans (Cert.Lib.MergeRows.row_apply _ _ d)

theorem v5_apply (c : Dev nD) (d : Fin 32) (z : Fin 128) :
    V1 m ρ c main_v5 (ix2 d z) = m ((c : Thread nD τ).loc main_arg5) (ix2 z (⟨d.val, by omega⟩ : Fin 64)) :=
  (congrFun (v5_eq m ρ c) _).trans ((Cert.Lib.MergeRows.transpose_apply _ _ d z).trans
    (extractStridedSlice_apply _ _ _ _ _ (fun a => by
      match a with
      | ⟨0, _⟩ => show z.val = 0 + z.val; omega
      | ⟨1, _⟩ => show d.val = 0 + d.val; omega)))

theorem v7_apply (c : Dev nD) (d : Fin 32) (z : Fin 128) :
    V1 m ρ c main_v7 (ix2 d z) = m ((c : Thread nD τ).loc main_arg5) (ix2 z (⟨32 + d.val, by omega⟩ : Fin 64)) :=
  (congrFun (v7_eq m ρ c) _).trans ((Cert.Lib.MergeRows.transpose_apply _ _ d z).trans
    (extractStridedSlice_apply _ _ _ _ _ (fun a => by
      match a with
      | ⟨0, _⟩ => show z.val = 0 + z.val; omega
      | ⟨1, _⟩ => show 32 + d.val = 32 + d.val; rfl)))

theorem v8_apply (c : Dev nD) (z : Fin 128) :
    V1 m ρ c main_v8 (ix2 (0 : Fin 1) z) = m ((c : Thread nD τ).loc main_arg6) (ix1 z) :=
  (congrFun (v8_eq m ρ c) _).trans (Cert.Lib.MergeRows.row_apply _ _ z)

end Cert.KernelIdeal.HostPart

end
-- ==== Proof.Spec.lean ====
/-
  The pairwise feature map, as functions of the argument arrays on the extended reals.

  A row l of the sequence state is layer-normalised over its 1024 channels (mean and variance are sums divided by
  1024, the variance floored by a small positive constant before the reciprocal square root), scaled and shifted
  channel by channel, and projected to 64 features: the first 32 are the row's "q" features and the last 32 its "k"
  features. The result at (i, j, z) pairs row j's q with row i's k:

    * the two-pass form sums, over all 64 input features of the output weight, the 32 products q·k followed by
      the 32 differences q − k, each times the weight's entry;
    * the split form sums the 32 products against the weight's first half, and handles the differences as
      (∑ q·w) − (∑ k·w) against the weight's second half.

  The two forms agree when q, k and the weight are real (finite): the difference of two sums of reals is the sum of
  the differences. At an infinite q or k they need not.
-/
import Idealize.ShloMosaic.PureOps.Ideal
import Idealize.ShloMosaic.Lib.ValueIdx

noncomputable section

namespace Cert.PairSpec

open Idealize.ShloMosaic Idealize.ShloMosaic.ValueIdx
open scoped BigOperators

/-- The divisor 1024.0 of the two means. -/
abbrev n1024 : EReal := Ideal.ofBits .f32 0x44800000#32
/-- The variance floor (the f32 nearest to 1e-5). -/
abbrev eps : EReal := Ideal.ofBits .f32 0x3727C5AC#32

section LayerNorm
variable (x : (⟨3, ![1, 1024, 1024]⟩ : Shape).Idx → EReal)
  (g b : (⟨1, ![1024]⟩ : Shape).Idx → EReal)
  (W : (⟨2, ![64, 1024]⟩ : Shape).Idx → EReal) (pb : (⟨1, ![64]⟩ : Shape).Idx → EReal)

/-- Row l's mean over its channels. -/
def mean (l : Fin 1024) : EReal := Ideal.div (∑ c : Fin 1024, x (ix3 (0 : Fin 1) l c)) n1024
/-- Row l's entry c, centred. -/
def cen (l c : Fin 1024) : EReal := x (ix3 (0 : Fin 1) l c) - mean x l
/-- Row l's variance. -/
def var (l : Fin 1024) : EReal := Ideal.div (∑ c : Fin 1024, cen x l c * cen x l c) n1024
/-- Row l's reciprocal standard deviation. -/
def inv (l : Fin 1024) : EReal := Ideal.rsqrt (var x l + eps)
/-- The normalised, scaled and shifted entry. -/
def norm (l c : Fin 1024) : EReal := cen x l c * inv x l * g (ix1 c) + b (ix1 c)
/-- Row l's feature d after the projection. -/
def proj (l : Fin 1024) (d : Fin 64) : EReal := (∑ c : Fin 1024, norm x g b l c * W (ix2 d c)) + pb (ix1 d)
/-- The q features: the first 32. -/
def qv (l : Fin 1024) (d : Fin 32) : EReal := proj x g b W pb l ⟨d.val, by omega⟩
/-- The k features: the last 32. -/
def kv (l : Fin 1024) (d : Fin 32) : EReal := proj x g b W pb l ⟨32 + d.val, by omega⟩

end LayerNorm

section Pair
variable (q k : Fin 1024 → Fin 32 → EReal)
  (ow : (⟨2, ![128, 64]⟩ : Shape).Idx → EReal) (ob : (⟨1, ![128]⟩ : Shape).Idx → EReal)

/-- Row l's q (or k) features against the second half of the output weight. -/
def half2 (f : Fin 1024 → Fin 32 → EReal) (l : Fin 1024) (z : Fin 128) : EReal :=
  ∑ d : Fin 32, f l d * ow (ix2 z (⟨32 + d.val, by omega⟩ : Fin 64))

/-- The split form. -/
def outSplit (i j : Fin 1024) (z : Fin 128) : EReal :=
  (((∑ d : Fin 32, (q j d * k i d) * ow (ix2 z (⟨d.val, by omega⟩ : Fin 64))) + half2 ow q j z) - half2 ow k i z) + ob (ix1 z)

/-- The 64 joined features of the pair (i, j): products, then differences. -/
def joined (i j : Fin 1024) (d : Fin 64) : EReal :=
  if h : d.val < 32 then q j ⟨d.val, h⟩ * k i ⟨d.val, h⟩
  else q j ⟨d.val - 32, by omega⟩ - k i ⟨d.val - 32, by omega⟩

/-- The two-pass form. -/
def outJoined (i j : Fin 1024) (z : Fin 128) : EReal :=
  (∑ d : Fin 64, joined q k i j d * ow (ix2 z d)) + ob (ix1 z)

end Pair

end Cert.PairSpec

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibUnitAxis.lean ====
/-
  A leading unit axis read at an index.

  A block of shape [1, h, w] and the matrix of shape [h, w] with the same entries in row-major order: viewing the
  block as the matrix reads (0, r, c) at (r, c), and storing the matrix as a block reads (r, c) at (·, r, c). For any
  element type and any extents.
-/
import Idealize.ShloMosaic.Lib.Pipeline.Value
import Idealize.ShloMosaic.Lib.ValueIdx

noncomputable section

namespace Cert.Lib.UnitAxis

open Idealize.ShloMosaic Idealize.ShloMosaic.ValueIdx

/-- A block [1, h, w] viewed [h, w] reads (0, r, c) at (r, c). -/
theorem drop_apply {h w : Nat} {α : Type} (v : (⟨3, ![1, h, w]⟩ : Shape).Idx → α)
    (hc : (⟨3, ![1, h, w]⟩ : Shape).ShapeCasts ⟨2, ![h, w]⟩) (r : Fin h) (c : Fin w) :
    shapeCast ⟨2, ![h, w]⟩ v hc (ix2 r c) = v (ix3 (0 : Fin 1) r c) :=
  shapeCast_apply v hc _ _ (by
    rw [Shape.rowMajor_val_three, Shape.rowMajor_val_two]
    show (0 * h + r.val) * w + c.val = r.val * w + c.val
    rw [Nat.zero_mul, Nat.zero_add])

/-- An [h, w] value stored as a block [1, h, w] reads (r, c) at (u, r, c). -/
theorem add_apply {h w : Nat} {α : Type} (v : (⟨2, ![h, w]⟩ : Shape).Idx → α)
    (hc : (⟨2, ![h, w]⟩ : Shape).ShapeCasts ⟨3, ![1, h, w]⟩) (u : Fin 1) (r : Fin h) (c : Fin w) :
    shapeCast ⟨3, ![1, h, w]⟩ v hc (ix3 u r c) = v (ix2 r c) :=
  shapeCast_apply v hc _ _ (by
    have hu : u.val = 0 := by omega
    rw [Shape.rowMajor_val_three, Shape.rowMajor_val_two]
    show r.val * w + c.val = (u.val * h + r.val) * w + c.val
    rw [hu, Nat.zero_mul, Nat.zero_add])

end Cert.Lib.UnitAxis

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.K0Pay.lean ====
/-
  The layer-norm/projection body read at an index.

  The body loads a block of 128 rows of the sequence state, the scale and shift as 1 × 1024 rows, the transposed
  projection weight (1024 × 64), its bias as a 1 × 64 row, and the transposed second half of the output weight
  (32 × 128). At row r of the block and feature d the projected value is the layer-normalised row against column d
  of the weight plus the bias: row l's feature d of the specification, when the block's row r is the array's row l
  and the rows and the weight are those of the argument arrays. The body's other two results are the 32 q (or k)
  features of a row against the second half of the output weight.
-/
import proofs.«162133_j3453153706645_2_alg».proof.Proof.Gen.KernelIdeal.Skeleton
import proofs.«162133_j3453153706645_2_alg».proof.Proof.Spec
import proofs.«162133_j3453153706645_2_alg».proof.Proof.LibPlainDot
import proofs.«162133_j3453153706645_2_alg».proof.Proof.LibUnitAxis
import proofs.«162133_j3453153706645_2_alg».proof.Proof.LibRowBroadcasts
import Idealize.ShloMosaic.Lib.Pipeline.Value
import Idealize.ShloMosaic.Lib.ValueIdx
import Idealize.ShloMosaic.PureOps.Ideal.Laws

noncomputable section

namespace Cert.KernelIdeal.Stage1

open Cert.KernelIdeal Cert.KernelIdeal.Gen Idealize.ShloMosaic Idealize.ShloMosaic.TcCoe Idealize.ShloMosaic.ValueIdx Cert.PairSpec
open scoped BigOperators

/-! ## The layout operations of the body, each at an index -/

section Layout
variable {α : Type}

/-- A per-row statistic [1,128] kept as a column [1,128,1] reads the statistic of its row. -/
theorem stat_col (v : S1x128.Idx → α) (h : S1x128.ShapeCasts S1x128x1) (r : Fin 128) :
    shapeCast S1x128x1 v h (ix3 (0 : Fin 1) r (0 : Fin 1)) = v (ix2 (0 : Fin 1) r) :=
  shapeCast_apply v h _ _ (by
    rw [Shape.rowMajor_val_two, Shape.rowMajor_val_three]
    show 0 * 128 + r.val = (0 * 128 + r.val) * 1 + 0
    omega)

/-- The column broadcast back over the 1024 channels reads the row's statistic. -/
theorem col_bcast (v : S1x128x1.Idx → α) (h : S1x128x1.Broadcasts S1x128x1024) (r : Fin 128) (c : Fin 1024) :
    broadcastTo S1x128x1024 v h (ix3 (0 : Fin 1) r c) = v (ix3 (0 : Fin 1) r (0 : Fin 1)) :=
  broadcastTo_apply v h _ _ (fun a => by match a with | ⟨0, _⟩ => rfl | ⟨1, _⟩ => rfl | ⟨2, _⟩ => rfl)

/-- A 1 × 1024 row given a unit middle axis reads the row. -/
theorem row_mid (v : S1x1024.Idx → α) (h : S1x1024.ShapeCasts S1x1x1024) (c : Fin 1024) :
    shapeCast S1x1x1024 v h (ix3 (0 : Fin 1) (0 : Fin 1) c) = v (ix2 (0 : Fin 1) c) :=
  shapeCast_apply v h _ _ (by
    rw [Shape.rowMajor_val_two, Shape.rowMajor_val_three]
    show 0 * 1024 + c.val = (0 * 1 + 0) * 1024 + c.val
    omega)

/-- That row broadcast down the 128 rows of the block reads the row at the channel. -/
theorem row_bcast (v : S1x1x1024.Idx → α) (h : S1x1x1024.Broadcasts S1x128x1024) (r : Fin 128) (c : Fin 1024) :
    broadcastTo S1x128x1024 v h (ix3 (0 : Fin 1) r c) = v (ix3 (0 : Fin 1) (0 : Fin 1) c) :=
  broadcastTo_apply v h _ _ (fun a => by match a with | ⟨0, _⟩ => rfl | ⟨1, _⟩ => rfl | ⟨2, _⟩ => rfl)

/-- The first 32 of 64 features. -/
theorem feat_lo (v : S128x64.Idx → α) (h : S128x64.Slices ![0, 0] S128x32) (r : Fin 128) (d : Fin 32) :
    extractStridedSlice S128x32 ![0, 0] v h (ix2 r d) = v (ix2 r (⟨d.val, by omega⟩ : Fin 64)) :=
  extractStridedSlice_apply _ v h _ _ (fun a => by
    match a with
    | ⟨0, _⟩ => show r.val = 0 + r.val; omega
    | ⟨1, _⟩ => show d.val = 0 + d.val; omega)

/-- The last 32 of 64 features. -/
theorem feat_hi (v : S128x64.Idx → α) (h : S128x64.Slices ![0, 32] S128x32) (r : Fin 128) (d : Fin 32) :
    extractStridedSlice S128x32 ![0, 32] v h (ix2 r d) = v (ix2 r (⟨32 + d.val, by omega⟩ : Fin 64)) :=
  extractStridedSlice_apply _ v h _ _ (fun a => by
    match a with
    | ⟨0, _⟩ => show r.val = 0 + r.val; omega
    | ⟨1, _⟩ => show 32 + d.val = 32 + d.val; rfl)

end Layout

/-- A row's sum over its channels. -/
theorem row_sum (v : S1x128x1024.Idx → EReal) (h : S1x128x1024.Reduces [2] S1x128) (r : Fin 128) :
    Ideal.reduceAdd h v (ix2 (0 : Fin 1) r) = ∑ c : Fin 1024, v (ix3 (0 : Fin 1) r c) :=
  (Ideal.reduceAdd_single h v (ix2 (0 : Fin 1) r)).trans
    (Finset.sum_congr rfl fun c _ => congrArg v
      (funext fun a => Fin.ext (by match a with | ⟨0, _⟩ => rfl | ⟨1, _⟩ => rfl | ⟨2, _⟩ => rfl)))

/-- The block's normalised rows against the projection weight. -/
theorem proj_mm (l : FVec Ideal S128x1024 .bf16) (w : FVec Ideal S1024x64 .bf16) (r : Fin 128) (d : Fin 64) :
    matmul dot_S128x1024_S1024x64_S128x64_1_0_0_1_n_n none l w (constant S128x64 .f32 0x00000000#32) (ix2 r d)
      = ∑ c : Fin 1024, l (ix2 r c) * w (ix2 c d) :=
  Cert.Lib.PlainDot.matmul_zero_apply dot_S128x1024_S1024x64_S128x64_1_0_0_1_n_n.wf none l w r d

/-- 32 features against the transposed half weight. -/
theorem half_mm (l : FVec Ideal S128x32 .bf16) (w : FVec Ideal S32x128 .bf16) (r : Fin 128) (z : Fin 128) :
    matmul dot_S128x32_S32x128_S128x128_1_0_0_1_n_n none l w (constant S128x128 .f32 0x00000000#32) (ix2 r z)
      = ∑ d : Fin 32, l (ix2 r d) * w (ix2 d z) :=
  Cert.Lib.PlainDot.matmul_zero_apply dot_S128x32_S32x128_S128x128_1_0_0_1_n_n.wf none l w r z

theorem rsqrt_apply {s : Shape} (v : FVec Ideal s .f32) (i : s.Idx) : rsqrt v i = Ideal.rsqrt (v i) := rfl

/-! ## The projection at an index -/

section Block
variable (x0 : Vec Ideal S1x128x1024 .f32) (x1 x2 : Vec Ideal S1x1024 .f32) (x3 : Vec Ideal S1024x64 .f32) (x4 : Vec Ideal S1x64 .f32)

/-- Row r of the block, its mean. -/
def bmean (r : Fin 128) : EReal := Ideal.div (∑ c : Fin 1024, x0 (ix3 (0 : Fin 1) r c)) n1024
/-- Row r of the block, centred, at channel c. -/
def bcen (r : Fin 128) (c : Fin 1024) : EReal := x0 (ix3 (0 : Fin 1) r c) - bmean x0 r
/-- Row r's reciprocal standard deviation. -/
def binv (r : Fin 128) : EReal := Ideal.rsqrt (Ideal.div (∑ c : Fin 1024, bcen x0 r c * bcen x0 r c) n1024 + eps)

/-- The body's projected block at (r, d). -/
theorem pay5_apply (r : Fin 128) (d : Fin 64) :
    k0_pay5 x0 x1 x2 x3 x4 (ix2 r d)
      = (∑ c : Fin 1024, (bcen x0 r c * binv x0 r * x1 (ix2 (0 : Fin 1) c) + x2 (ix2 (0 : Fin 1) c)) * x3 (ix2 c d))
          + x4 (ix2 (0 : Fin 1) d) := by
  unfold k0_pay5
  simp only [addf_apply, proj_mm, truncf_apply, Cert.Lib.UnitAxis.drop_apply, mulf_apply, subf_apply, col_bcast, divf_apply,
    stat_col, multiReduction, Ideal.reduceAdd_def, row_sum, broadcast_apply, rsqrt_apply, row_bcast, row_mid, shapeCast_self, Cert.Lib.Rows.bcastRow_apply]
  rfl

end Block

/-! ## The body's four results against the specification -/

section Spec
variable (x0 : Vec Ideal S1x128x1024 .f32) (x1 x2 : Vec Ideal S1x1024 .f32) (x3 : Vec Ideal S1024x64 .f32) (x4 : Vec Ideal S1x64 .f32)
  (x5 : Vec Ideal S32x128 .f32)
variable (X : S1x1024x1024.Idx → EReal) (g b : S1024.Idx → EReal) (W : S64x1024.Idx → EReal) (pb : S64.Idx → EReal)
  (ow : S128x64.Idx → EReal)

/-- When the block's row r is the array's row l, and the prepared rows and weight are those of the arguments, the
    projected block at (r, d) is row l's feature d. -/
theorem pay5_spec (l : Fin 1024) (r : Fin 128) (d : Fin 64)
    (hx : ∀ k : Fin 1024, x0 (ix3 (0 : Fin 1) r k) = X (ix3 (0 : Fin 1) l k))
    (hg : ∀ k : Fin 1024, x1 (ix2 (0 : Fin 1) k) = g (ix1 k)) (hb : ∀ k : Fin 1024, x2 (ix2 (0 : Fin 1) k) = b (ix1 k))
    (hW : ∀ (k : Fin 1024) (e : Fin 64), x3 (ix2 k e) = W (ix2 e k)) (hpb : ∀ e : Fin 64, x4 (ix2 (0 : Fin 1) e) = pb (ix1 e)) :
    k0_pay5 x0 x1 x2 x3 x4 (ix2 r d) = proj X g b W pb l d := by
  rw [pay5_apply]
  simp only [PairSpec.proj, PairSpec.norm, PairSpec.inv, PairSpec.var, PairSpec.cen, PairSpec.mean, bcen, binv, bmean, hx, hg, hb, hW, hpb]

/-- The stored q block. -/
theorem q_spec (l : Fin 1024) (y : S1x128x32.Idx) (d : Fin 32) (hd : (y 2).val = d.val)
    (hx : ∀ k : Fin 1024, x0 (ix3 (0 : Fin 1) (y 1) k) = X (ix3 (0 : Fin 1) l k))
    (hg : ∀ k : Fin 1024, x1 (ix2 (0 : Fin 1) k) = g (ix1 k)) (hb : ∀ k : Fin 1024, x2 (ix2 (0 : Fin 1) k) = b (ix1 k))
    (hW : ∀ (k : Fin 1024) (e : Fin 64), x3 (ix2 k e) = W (ix2 e k)) (hpb : ∀ e : Fin 64, x4 (ix2 (0 : Fin 1) e) = pb (ix1 e)) :
    k0_pay8 x0 x1 x2 x3 x4 y = qv X g b W pb l d := by
  obtain ⟨u, r, e, rfl⟩ : ∃ (u : Fin 1) (r : Fin 128) (e : Fin 32), y = ix3 u r e := ⟨y 0, y 1, y 2, eq_ix3 y⟩
  obtain rfl : e = d := Fin.ext hd
  unfold k0_pay8 k0_pay6
  rw [Cert.Lib.UnitAxis.add_apply, feat_lo]
  exact pay5_spec x0 x1 x2 x3 x4 X g b W pb l r _ hx hg hb hW hpb

/-- The stored k block. -/
theorem k_spec (l : Fin 1024) (y : S1x128x32.Idx) (d : Fin 32) (hd : (y 2).val = d.val)
    (hx : ∀ k : Fin 1024, x0 (ix3 (0 : Fin 1) (y 1) k) = X (ix3 (0 : Fin 1) l k))
    (hg : ∀ k : Fin 1024, x1 (ix2 (0 : Fin 1) k) = g (ix1 k)) (hb : ∀ k : Fin 1024, x2 (ix2 (0 : Fin 1) k) = b (ix1 k))
    (hW : ∀ (k : Fin 1024) (e : Fin 64), x3 (ix2 k e) = W (ix2 e k)) (hpb : ∀ e : Fin 64, x4 (ix2 (0 : Fin 1) e) = pb (ix1 e)) :
    k0_pay1 (k0_pay7 x0 x1 x2 x3 x4) y = kv X g b W pb l d := by
  obtain ⟨u, r, e, rfl⟩ : ∃ (u : Fin 1) (r : Fin 128) (e : Fin 32), y = ix3 u r e := ⟨y 0, y 1, y 2, eq_ix3 y⟩
  obtain rfl : e = d := Fin.ext hd
  unfold k0_pay1 k0_pay7
  rw [Cert.Lib.UnitAxis.add_apply, feat_hi]
  exact pay5_spec x0 x1 x2 x3 x4 X g b W pb l r _ hx hg hb hW hpb

/-- The stored block of q features against the second half of the output weight. -/
theorem qd_spec (l : Fin 1024) (y : S1x128x128.Idx) (z : Fin 128) (hz : (y 2).val = z.val)
    (hx : ∀ k : Fin 1024, x0 (ix3 (0 : Fin 1) (y 1) k) = X (ix3 (0 : Fin 1) l k))
    (hg : ∀ k : Fin 1024, x1 (ix2 (0 : Fin 1) k) = g (ix1 k)) (hb : ∀ k : Fin 1024, x2 (ix2 (0 : Fin 1) k) = b (ix1 k))
    (hW : ∀ (k : Fin 1024) (e : Fin 64), x3 (ix2 k e) = W (ix2 e k)) (hpb : ∀ e : Fin 64, x4 (ix2 (0 : Fin 1) e) = pb (ix1 e))
    (hod : ∀ (e : Fin 32) (z : Fin 128), x5 (ix2 e z) = ow (ix2 z (⟨32 + e.val, by omega⟩ : Fin 64))) :
    k0_pay3 (k0_pay6 x0 x1 x2 x3 x4) x5 y = half2 ow (qv X g b W pb) l z := by
  obtain ⟨u, r, e, rfl⟩ : ∃ (u : Fin 1) (r : Fin 128) (e : Fin 128), y = ix3 u r e := ⟨y 0, y 1, y 2, eq_ix3 y⟩
  obtain rfl : e = z := Fin.ext hz
  unfold k0_pay3 k0_pay2 k0_pay6
  rw [Cert.Lib.UnitAxis.add_apply, half_mm]
  unfold half2 qv
  refine Finset.sum_congr rfl fun d _ => ?_
  rw [truncf_apply, truncf_apply, feat_lo, shapeCast_self, hod]
  exact congrArg (· * _) (pay5_spec x0 x1 x2 x3 x4 X g b W pb l r _ hx hg hb hW hpb)

/-- The stored block of k features against the second half of the output weight. -/
theorem kd_spec (l : Fin 1024) (y : S1x128x128.Idx) (z : Fin 128) (hz : (y 2).val = z.val)
    (hx : ∀ k : Fin 1024, x0 (ix3 (0 : Fin 1) (y 1) k) = X (ix3 (0 : Fin 1) l k))
    (hg : ∀ k : Fin 1024, x1 (ix2 (0 : Fin 1) k) = g (ix1 k)) (hb : ∀ k : Fin 1024, x2 (ix2 (0 : Fin 1) k) = b (ix1 k))
    (hW : ∀ (k : Fin 1024) (e : Fin 64), x3 (ix2 k e) = W (ix2 e k)) (hpb : ∀ e : Fin 64, x4 (ix2 (0 : Fin 1) e) = pb (ix1 e))
    (hod : ∀ (e : Fin 32) (z : Fin 128), x5 (ix2 e z) = ow (ix2 z (⟨32 + e.val, by omega⟩ : Fin 64))) :
    k0_pay4 (k0_pay7 x0 x1 x2 x3 x4) x5 y = half2 ow (kv X g b W pb) l z := by
  obtain ⟨u, r, e, rfl⟩ : ∃ (u : Fin 1) (r : Fin 128) (e : Fin 128), y = ix3 u r e := ⟨y 0, y 1, y 2, eq_ix3 y⟩
  obtain rfl : e = z := Fin.ext hz
  unfold k0_pay4 k0_pay2 k0_pay7
  rw [Cert.Lib.UnitAxis.add_apply, half_mm]
  unfold half2 kv
  refine Finset.sum_congr rfl fun d _ => ?_
  rw [truncf_apply, truncf_apply, feat_hi, shapeCast_self, hod]
  exact congrArg (· * _) (pay5_spec x0 x1 x2 x3 x4 X g b W pb l r _ hx hg hb hW hpb)

end Spec

end Cert.KernelIdeal.Stage1

end
-- ==== Proof.KCover.lean ====
/-
  The output blocks of the two pipelined regions cover their arrays.

  Region 0 runs over 8 points; point t handles rows 128·t … 128·t + 127: each of its four output windows has block
  index (0, t, 0), so the eight blocks tile the 1024 rows of the window's array. Region 1 runs over 8 × 8 points,
  numbered t = 8·a + b; its output window has block index (0, a, b, 0) with blocks of 128 × 128 (rows × columns),
  so the 64 blocks tile the 1024 × 1024 array. Every point writes its block back. Hence every index of each output
  array lies in the block of some point that writes back: index (0, r, …) of region 0 in the block of point r / 128;
  index (0, r, s, z) of region 1 in the block of point 8·(r / 128) + s / 128.

  The block indices of all windows are also recorded, point by point (decided over the 8 and the 64 points).
-/
import proofs.«162133_j3453153706645_2_alg».proof.Proof.Gen.KernelIdeal.Frame
import Idealize.ShloMosaic.Lib.Pipeline.Value

noncomputable section

namespace Cert.KernelIdeal.Cover

open Cert.KernelIdeal Cert.KernelIdeal.Gen Idealize.ShloMosaic Idealize.ShloMosaic.TcCoe Idealize.SL.Sem
open Idealize.ShloMosaic.Pipeline (Dat Cfg Window)

/-! ## Region 0 -/

/-- The block indices of region 0's ten windows at point t: the row-blocked windows (0 and 6–9) are at (0, t, 0),
    the others at the origin. -/
theorem idx0 : ∀ t : Fin cfg0.N, (win0_0.index t (0 : Fin 3) = 0 ∧ win0_0.index t (1 : Fin 3) = t.val ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = 0 ∧ win0_6.index t (1 : Fin 3) = t.val ∧ win0_6.index t (2 : Fin 3) = 0)
    ∧ (win0_7.index t (0 : Fin 3) = 0 ∧ win0_7.index t (1 : Fin 3) = t.val ∧ win0_7.index t (2 : Fin 3) = 0)
    ∧ (win0_8.index t (0 : Fin 3) = 0 ∧ win0_8.index t (1 : Fin 3) = t.val ∧ win0_8.index t (2 : Fin 3) = 0)
    ∧ (win0_9.index t (0 : Fin 3) = 0 ∧ win0_9.index t (1 : Fin 3) = t.val ∧ win0_9.index t (2 : Fin 3) = 0) :=
  (by decide +kernel : ∀ t : Fin grid0.N, _)

/-- An index of window 6's array is in point t's block iff each coordinate is in the block's range on its axis. -/
theorem mem_blk0_6 (t : Fin cfg0.N) (i : S1x1024x32.Idx) :
    i ∈ ((cfg0.win 6).blk t).view.set ↔ ∀ a : Fin 3, win0_6.index t a * S1x128x32.size a ≤ (i a).val ∧ (i a).val < win0_6.index t a * S1x128x32.size a + S1x128x32.size a := by
  show i ∈ ((View.whole main_v9_0).slice (win0_6.rect t)).set ↔ _
  rw [View.set_slice_whole, Rect.mem_set_unit]
  exact Iff.rfl

/-- Window 6's eight row blocks cover its array: index (0, r, c) lies in the block of point r / 128. -/
theorem cover0_6 : ∀ i : S1x1024x32.Idx, ∃ t : Fin cfg0.N, (cfg0.win 6).flush t = true ∧ i ∈ ((cfg0.win 6).blk t).view.set := by
  intro i
  have hN : grid0.N = 8 := N_0
  have hi0 : (i 0).val < 1 := (i 0).isLt
  have hi1 : (i 1).val < 1024 := (i 1).isLt
  have hi2 : (i 2).val < 32 := (i 2).isLt
  have ht : (i 1).val / 128 < grid0.N := by rw [hN]; omega
  obtain ⟨-, -, -, -, -, -, f6, f7, f8, f9⟩ := idx0 ⟨(i 1).val / 128, ht⟩
  obtain ⟨q0, q1, q2⟩ := f6
  have q1' : win0_6.index ⟨(i 1).val / 128, ht⟩ (1 : Fin 3) = (i 1).val / 128 := q1
  refine ⟨⟨(i 1).val / 128, ht⟩, flush0_6 _, ?_⟩
  rw [mem_blk0_6]
  intro a
  match a with
  | ⟨0, _⟩ => show win0_6.index ⟨(i 1).val / 128, ht⟩ (0 : Fin 3) * 1 ≤ (i 0).val ∧ (i 0).val < win0_6.index ⟨(i 1).val / 128, ht⟩ (0 : Fin 3) * 1 + 1; omega
  | ⟨1, _⟩ => show win0_6.index ⟨(i 1).val / 128, ht⟩ (1 : Fin 3) * 128 ≤ (i 1).val ∧ (i 1).val < win0_6.index ⟨(i 1).val / 128, ht⟩ (1 : Fin 3) * 128 + 128; omega
  | ⟨2, _⟩ => show win0_6.index ⟨(i 1).val / 128, ht⟩ (2 : Fin 3) * 32 ≤ (i 2).val ∧ (i 2).val < win0_6.index ⟨(i 1).val / 128, ht⟩ (2 : Fin 3) * 32 + 32; omega

/-- An index of window 7's array is in point t's block iff each coordinate is in the block's range on its axis. -/
theorem mem_blk0_7 (t : Fin cfg0.N) (i : S1x1024x32.Idx) :
    i ∈ ((cfg0.win 7).blk t).view.set ↔ ∀ a : Fin 3, win0_7.index t a * S1x128x32.size a ≤ (i a).val ∧ (i a).val < win0_7.index t a * S1x128x32.size a + S1x128x32.size a := by
  show i ∈ ((View.whole main_v9_1).slice (win0_7.rect t)).set ↔ _
  rw [View.set_slice_whole, Rect.mem_set_unit]
  exact Iff.rfl

/-- Window 7's eight row blocks cover its array: index (0, r, c) lies in the block of point r / 128. -/
theorem cover0_7 : ∀ i : S1x1024x32.Idx, ∃ t : Fin cfg0.N, (cfg0.win 7).flush t = true ∧ i ∈ ((cfg0.win 7).blk t).view.set := by
  intro i
  have hN : grid0.N = 8 := N_0
  have hi0 : (i 0).val < 1 := (i 0).isLt
  have hi1 : (i 1).val < 1024 := (i 1).isLt
  have hi2 : (i 2).val < 32 := (i 2).isLt
  have ht : (i 1).val / 128 < grid0.N := by rw [hN]; omega
  obtain ⟨-, -, -, -, -, -, f6, f7, f8, f9⟩ := idx0 ⟨(i 1).val / 128, ht⟩
  obtain ⟨q0, q1, q2⟩ := f7
  have q1' : win0_7.index ⟨(i 1).val / 128, ht⟩ (1 : Fin 3) = (i 1).val / 128 := q1
  refine ⟨⟨(i 1).val / 128, ht⟩, flush0_7 _, ?_⟩
  rw [mem_blk0_7]
  intro a
  match a with
  | ⟨0, _⟩ => show win0_7.index ⟨(i 1).val / 128, ht⟩ (0 : Fin 3) * 1 ≤ (i 0).val ∧ (i 0).val < win0_7.index ⟨(i 1).val / 128, ht⟩ (0 : Fin 3) * 1 + 1; omega
  | ⟨1, _⟩ => show win0_7.index ⟨(i 1).val / 128, ht⟩ (1 : Fin 3) * 128 ≤ (i 1).val ∧ (i 1).val < win0_7.index ⟨(i 1).val / 128, ht⟩ (1 : Fin 3) * 128 + 128; omega
  | ⟨2, _⟩ => show win0_7.index ⟨(i 1).val / 128, ht⟩ (2 : Fin 3) * 32 ≤ (i 2).val ∧ (i 2).val < win0_7.index ⟨(i 1).val / 128, ht⟩ (2 : Fin 3) * 32 + 32; omega

/-- An index of window 8's array is in point t's block iff each coordinate is in the block's range on its axis. -/
theorem mem_blk0_8 (t : Fin cfg0.N) (i : S1x1024x128.Idx) :
    i ∈ ((cfg0.win 8).blk t).view.set ↔ ∀ a : Fin 3, win0_8.index t a * S1x128x128.size a ≤ (i a).val ∧ (i a).val < win0_8.index t a * S1x128x128.size a + S1x128x128.size a := by
  show i ∈ ((View.whole main_v9_2).slice (win0_8.rect t)).set ↔ _
  rw [View.set_slice_whole, Rect.mem_set_unit]
  exact Iff.rfl

/-- Window 8's eight row blocks cover its array: index (0, r, c) lies in the block of point r / 128. -/
theorem cover0_8 : ∀ i : S1x1024x128.Idx, ∃ t : Fin cfg0.N, (cfg0.win 8).flush t = true ∧ i ∈ ((cfg0.win 8).blk t).view.set := by
  intro i
  have hN : grid0.N = 8 := N_0
  have hi0 : (i 0).val < 1 := (i 0).isLt
  have hi1 : (i 1).val < 1024 := (i 1).isLt
  have hi2 : (i 2).val < 128 := (i 2).isLt
  have ht : (i 1).val / 128 < grid0.N := by rw [hN]; omega
  obtain ⟨-, -, -, -, -, -, f6, f7, f8, f9⟩ := idx0 ⟨(i 1).val / 128, ht⟩
  obtain ⟨q0, q1, q2⟩ := f8
  have q1' : win0_8.index ⟨(i 1).val / 128, ht⟩ (1 : Fin 3) = (i 1).val / 128 := q1
  refine ⟨⟨(i 1).val / 128, ht⟩, flush0_8 _, ?_⟩
  rw [mem_blk0_8]
  intro a
  match a with
  | ⟨0, _⟩ => show win0_8.index ⟨(i 1).val / 128, ht⟩ (0 : Fin 3) * 1 ≤ (i 0).val ∧ (i 0).val < win0_8.index ⟨(i 1).val / 128, ht⟩ (0 : Fin 3) * 1 + 1; omega
  | ⟨1, _⟩ => show win0_8.index ⟨(i 1).val / 128, ht⟩ (1 : Fin 3) * 128 ≤ (i 1).val ∧ (i 1).val < win0_8.index ⟨(i 1).val / 128, ht⟩ (1 : Fin 3) * 128 + 128; omega
  | ⟨2, _⟩ => show win0_8.index ⟨(i 1).val / 128, ht⟩ (2 : Fin 3) * 128 ≤ (i 2).val ∧ (i 2).val < win0_8.index ⟨(i 1).val / 128, ht⟩ (2 : Fin 3) * 128 + 128; omega

/-- An index of window 9's array is in point t's block iff each coordinate is in the block's range on its axis. -/
theorem mem_blk0_9 (t : Fin cfg0.N) (i : S1x1024x128.Idx) :
    i ∈ ((cfg0.win 9).blk t).view.set ↔ ∀ a : Fin 3, win0_9.index t a * S1x128x128.size a ≤ (i a).val ∧ (i a).val < win0_9.index t a * S1x128x128.size a + S1x128x128.size a := by
  show i ∈ ((View.whole main_v9_3).slice (win0_9.rect t)).set ↔ _
  rw [View.set_slice_whole, Rect.mem_set_unit]
  exact Iff.rfl

/-- Window 9's eight row blocks cover its array: index (0, r, c) lies in the block of point r / 128. -/
theorem cover0_9 : ∀ i : S1x1024x128.Idx, ∃ t : Fin cfg0.N, (cfg0.win 9).flush t = true ∧ i ∈ ((cfg0.win 9).blk t).view.set := by
  intro i
  have hN : grid0.N = 8 := N_0
  have hi0 : (i 0).val < 1 := (i 0).isLt
  have hi1 : (i 1).val < 1024 := (i 1).isLt
  have hi2 : (i 2).val < 128 := (i 2).isLt
  have ht : (i 1).val / 128 < grid0.N := by rw [hN]; omega
  obtain ⟨-, -, -, -, -, -, f6, f7, f8, f9⟩ := idx0 ⟨(i 1).val / 128, ht⟩
  obtain ⟨q0, q1, q2⟩ := f9
  have q1' : win0_9.index ⟨(i 1).val / 128, ht⟩ (1 : Fin 3) = (i 1).val / 128 := q1
  refine ⟨⟨(i 1).val / 128, ht⟩, flush0_9 _, ?_⟩
  rw [mem_blk0_9]
  intro a
  match a with
  | ⟨0, _⟩ => show win0_9.index ⟨(i 1).val / 128, ht⟩ (0 : Fin 3) * 1 ≤ (i 0).val ∧ (i 0).val < win0_9.index ⟨(i 1).val / 128, ht⟩ (0 : Fin 3) * 1 + 1; omega
  | ⟨1, _⟩ => show win0_9.index ⟨(i 1).val / 128, ht⟩ (1 : Fin 3) * 128 ≤ (i 1).val ∧ (i 1).val < win0_9.index ⟨(i 1).val / 128, ht⟩ (1 : Fin 3) * 128 + 128; omega
  | ⟨2, _⟩ => show win0_9.index ⟨(i 1).val / 128, ht⟩ (2 : Fin 3) * 128 ≤ (i 2).val ∧ (i 2).val < win0_9.index ⟨(i 1).val / 128, ht⟩ (2 : Fin 3) * 128 + 128; omega

/-! ## Region 1 -/

/-- The block indices of region 1's seven windows at point t = 8·a + b (a = t / 8, b = t % 8): windows 0 and 2 move
    with b, windows 1 and 3 with a, windows 4 and 5 stay at the origin, the output window is at (0, a, b, 0). -/
theorem idx1_divmod : ∀ t : Fin cfg1.N, win1_0.index t = ![0, t.val % 8, 0] ∧ win1_1.index t = ![0, t.val / 8, 0]
    ∧ win1_2.index t = ![0, t.val % 8, 0] ∧ win1_3.index t = ![0, t.val / 8, 0]
    ∧ win1_4.index t = ![0, 0] ∧ win1_5.index t = ![0, 0] ∧ win1_6.index t = ![0, t.val / 8, t.val % 8, 0] :=
  (by decide +kernel : ∀ t : Fin grid1.N, _)

/-- The same with the two grid coordinates named. -/
theorem idx1 : ∀ t : Fin cfg1.N, ∃ a b : Fin 8, t.val = 8 * a.val + b.val ∧ win1_0.index t = ![0, b.val, 0]
    ∧ win1_1.index t = ![0, a.val, 0] ∧ win1_2.index t = ![0, b.val, 0] ∧ win1_3.index t = ![0, a.val, 0]
    ∧ win1_4.index t = ![0, 0] ∧ win1_5.index t = ![0, 0] ∧ win1_6.index t = ![0, a.val, b.val, 0] := by
  intro t
  have hN : grid1.N = 64 := N_1
  have ht : t.val < grid1.N := t.isLt
  rw [hN] at ht
  exact ⟨⟨t.val / 8, by omega⟩, ⟨t.val % 8, by omega⟩, by show t.val = 8 * (t.val / 8) + t.val % 8; omega, idx1_divmod t⟩

/-- An index of the output array is in point t's block iff each coordinate is in the block's range on its axis. -/
theorem mem_blk1_6 (t : Fin cfg1.N) (i : S1x1024x1024x128.Idx) :
    i ∈ ((cfg1.win 6).blk t).view.set ↔ ∀ a : Fin 4, win1_6.index t a * S1x128x128x128.size a ≤ (i a).val ∧ (i a).val < win1_6.index t a * S1x128x128x128.size a + S1x128x128x128.size a := by
  show i ∈ ((View.whole main_v10).slice (win1_6.rect t)).set ↔ _
  rw [View.set_slice_whole, Rect.mem_set_unit]
  exact Iff.rfl

/-- The 64 blocks cover the output array: index (0, r, s, z) lies in the block of point 8·(r / 128) + s / 128. -/
theorem cover1_6 : ∀ i : S1x1024x1024x128.Idx, ∃ t : Fin cfg1.N, (cfg1.win 6).flush t = true ∧ i ∈ ((cfg1.win 6).blk t).view.set := by
  intro i
  have hN : grid1.N = 64 := N_1
  have hi0 : (i 0).val < 1 := (i 0).isLt
  have hi1 : (i 1).val < 1024 := (i 1).isLt
  have hi2 : (i 2).val < 1024 := (i 2).isLt
  have hi3 : (i 3).val < 128 := (i 3).isLt
  have ht : 8 * ((i 1).val / 128) + (i 2).val / 128 < grid1.N := by rw [hN]; omega
  obtain ⟨-, -, -, -, -, -, e6⟩ := idx1_divmod ⟨8 * ((i 1).val / 128) + (i 2).val / 128, ht⟩
  have q0 : win1_6.index ⟨8 * ((i 1).val / 128) + (i 2).val / 128, ht⟩ (0 : Fin 4) = 0 := congrFun e6 0
  have q1 : win1_6.index ⟨8 * ((i 1).val / 128) + (i 2).val / 128, ht⟩ (1 : Fin 4) = (8 * ((i 1).val / 128) + (i 2).val / 128) / 8 := congrFun e6 1
  have q2 : win1_6.index ⟨8 * ((i 1).val / 128) + (i 2).val / 128, ht⟩ (2 : Fin 4) = (8 * ((i 1).val / 128) + (i 2).val / 128) % 8 := congrFun e6 2
  have q3 : win1_6.index ⟨8 * ((i 1).val / 128) + (i 2).val / 128, ht⟩ (3 : Fin 4) = 0 := congrFun e6 3
  refine ⟨⟨8 * ((i 1).val / 128) + (i 2).val / 128, ht⟩, flush1_6 _, ?_⟩
  rw [mem_blk1_6]
  intro a
  match a with
  | ⟨0, _⟩ => show win1_6.index ⟨8 * ((i 1).val / 128) + (i 2).val / 128, ht⟩ (0 : Fin 4) * 1 ≤ (i 0).val ∧ (i 0).val < win1_6.index ⟨8 * ((i 1).val / 128) + (i 2).val / 128, ht⟩ (0 : Fin 4) * 1 + 1; omega
  | ⟨1, _⟩ => show win1_6.index ⟨8 * ((i 1).val / 128) + (i 2).val / 128, ht⟩ (1 : Fin 4) * 128 ≤ (i 1).val ∧ (i 1).val < win1_6.index ⟨8 * ((i 1).val / 128) + (i 2).val / 128, ht⟩ (1 : Fin 4) * 128 + 128; omega
  | ⟨2, _⟩ => show win1_6.index ⟨8 * ((i 1).val / 128) + (i 2).val / 128, ht⟩ (2 : Fin 4) * 128 ≤ (i 2).val ∧ (i 2).val < win1_6.index ⟨8 * ((i 1).val / 128) + (i 2).val / 128, ht⟩ (2 : Fin 4) * 128 + 128; omega
  | ⟨3, _⟩ => show win1_6.index ⟨8 * ((i 1).val / 128) + (i 2).val / 128, ht⟩ (3 : Fin 4) * 128 ≤ (i 3).val ∧ (i 3).val < win1_6.index ⟨8 * ((i 1).val / 128) + (i 2).val / 128, ht⟩ (3 : Fin 4) * 128 + 128; omega

end Cert.KernelIdeal.Cover

end
-- ==== Proof.KStage1.lean ====
/-
  The layer-norm/projection region: what each grid point writes back.

  Grid point t works on rows 128·t … 128·t + 127. Its block of the sequence state is those rows; the prepared scale,
  shift, weight and bias blocks are the whole prepared arrays. So what it writes back into the q array is the
  specification's q features of those rows, and likewise for k and for the two products with the second half of the
  output weight.
-/
import proofs.«162133_j3453153706645_2_alg».proof.Proof.Gen.KernelIdeal.Frame
import proofs.«162133_j3453153706645_2_alg».proof.Proof.K0Pay
import proofs.«162133_j3453153706645_2_alg».proof.Proof.KCover

set_option maxRecDepth 16384

noncomputable section

namespace Cert.KernelIdeal.Stage1

open Cert.KernelIdeal Cert.KernelIdeal.Gen Idealize.ShloMosaic Idealize.ShloMosaic.TcCoe Idealize.ShloMosaic.ValueIdx Cert.PairSpec
open Idealize.SL.Sem
open Idealize.ShloMosaic.Pipeline (Dat Cfg Window)

variable (V : (c : Dev nD) → (b : Ref sig .tc) → Buf (Elt Ideal) ((c : Thread nD τ).loc b)) (c : Dev nD)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the row-blocked windows sit at block t of their rows, the others at the origin. -/
theorem idx_facts : ∀ t : Fin cfg0.N,
    (win0_0.index t (0 : Fin 3) = 0 ∧ win0_0.index t (1 : Fin 3) = t.val ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = 0 ∧ win0_6.index t (1 : Fin 3) = t.val ∧ win0_6.index t (2 : Fin 3) = 0)
    ∧ (win0_7.index t (0 : Fin 3) = 0 ∧ win0_7.index t (1 : Fin 3) = t.val ∧ win0_7.index t (2 : Fin 3) = 0)
    ∧ (win0_8.index t (0 : Fin 3) = 0 ∧ win0_8.index t (1 : Fin 3) = t.val ∧ win0_8.index t (2 : Fin 3) = 0)
    ∧ (win0_9.index t (0 : Fin 3) = 0 ∧ win0_9.index t (1 : Fin 3) = t.val ∧ win0_9.index t (2 : Fin 3) = 0) :=
  (by decide +kernel : ∀ t : Fin grid0.N, _)

theorem t_lt (t : Fin cfg0.N) : t.val < 8 := by
  have h := t.isLt
  have hN : cfg0.N = 8 := N_0
  omega

/-- The state block at point t, row r: row 128·t + r of the array. -/
theorem blk0_read (t : Fin cfg0.N) (r : Fin 128) (k : Fin 1024) (l : Fin 1024) (hl : l.val = t.val * 128 + r.val) :
    iblk0 V c 0 t (ix3 (0 : Fin 1) r k) = V c main_arg0 (ix3 (0 : Fin 1) l k) := by
  obtain ⟨⟨e0, e1, e2⟩, -⟩ := idx_facts t
  show V c main_arg0 (((cfg0.win 0).blk t).view.emb (ix3 (0 : Fin 1) r k)) = _
  refine congrArg (V c main_arg0) (funext fun a => Fin.ext ?_)
  match a with
  | ⟨0, _⟩ => show win0_0.index t (0 : Fin 3) * 1 + 1 * 0 = 0; omega
  | ⟨1, _⟩ => show win0_0.index t (1 : Fin 3) * 128 + 1 * r.val = l.val; omega
  | ⟨2, _⟩ => show win0_0.index t (2 : Fin 3) * 1024 + 1 * k.val = k.val; omega

/-- The scale block is the whole prepared scale row. -/
theorem blk1_read (t : Fin cfg0.N) (k : Fin 1024) :
    iblk0 V c 1 t (ix2 (0 : Fin 1) k) = V c main_v0 (ix2 (0 : Fin 1) k) := by
  obtain ⟨-, ⟨e0, e1⟩, -⟩ := idx_facts t
  show V c main_v0 (((cfg0.win 1).blk t).view.emb (ix2 (0 : Fin 1) k)) = _
  refine congrArg (V c main_v0) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

/-- The shift block is the whole prepared shift row. -/
theorem blk2_read (t : Fin cfg0.N) (k : Fin 1024) :
    iblk0 V c 2 t (ix2 (0 : Fin 1) k) = V c main_v1 (ix2 (0 : Fin 1) k) := by
  obtain ⟨-, -, ⟨e0, e1⟩, -⟩ := idx_facts t
  show V c main_v1 (((cfg0.win 2).blk t).view.emb (ix2 (0 : Fin 1) k)) = _
  refine congrArg (V c main_v1) (funext fun a => Fin.ext ?_)
  match a with
  | ⟨0, _⟩ => show win0_2.index t (0 : Fin 2) * 1 + 1 * 0 = 0; omega
  | ⟨1, _⟩ => show win0_2.index t (1 : Fin 2) * 1024 + 1 * k.val = k.val; omega

/-- The weight block is the whole transposed projection weight. -/
theorem blk3_read (t : Fin cfg0.N) (k : Fin 1024) (e : Fin 64) :
    iblk0 V c 3 t (ix2 k e) = V c main_v2 (ix2 k e) := by
  obtain ⟨-, -, -, ⟨e0, e1⟩, -⟩ := idx_facts t
  show V c main_v2 (((cfg0.win 3).blk t).view.emb (ix2 k e)) = _
  refine congrArg (V c main_v2) (funext fun a => Fin.ext ?_)
  match a with
  | ⟨0, _⟩ => show win0_3.index t (0 : Fin 2) * 1024 + 1 * k.val = k.val; omega
  | ⟨1, _⟩ => show win0_3.index t (1 : Fin 2) * 64 + 1 * e.val = e.val; omega

/-- The bias block is the whole prepared bias row. -/
theorem blk4_read (t : Fin cfg0.N) (e : Fin 64) :
    iblk0 V c 4 t (ix2 (0 : Fin 1) e) = V c main_v3 (ix2 (0 : Fin 1) e) := by
  obtain ⟨-, -, -, -, ⟨e0, e1⟩, -⟩ := idx_facts t
  show V c main_v3 (((cfg0.win 4).blk t).view.emb (ix2 (0 : Fin 1) e)) = _
  refine congrArg (V c main_v3) (funext fun a => Fin.ext ?_)
  match a with
  | ⟨0, _⟩ => show win0_4.index t (0 : Fin 2) * 1 + 1 * 0 = 0; omega
  | ⟨1, _⟩ => show win0_4.index t (1 : Fin 2) * 64 + 1 * e.val = e.val; omega

/-- The half-weight block is the whole transposed second half of the output weight. -/
theorem blk5_read (t : Fin cfg0.N) (e : Fin 32) (z : Fin 128) :
    iblk0 V c 5 t (ix2 e z) = V c main_v7 (ix2 e z) := by
  obtain ⟨-, -, -, -, -, ⟨e0, e1⟩, -⟩ := idx_facts t
  show V c main_v7 (((cfg0.win 5).blk t).view.emb (ix2 e z)) = _
  refine congrArg (V c main_v7) (funext fun a => Fin.ext ?_)
  match a with
  | ⟨0, _⟩ => show win0_5.index t (0 : Fin 2) * 32 + 1 * e.val = e.val; omega
  | ⟨1, _⟩ => show win0_5.index t (1 : Fin 2) * 128 + 1 * z.val = z.val; omega

section Prepared
variable (g b : S1024.Idx → EReal) (W : S64x1024.Idx → EReal) (pb : S64.Idx → EReal) (ow : S128x64.Idx → EReal)
variable (hg : ∀ k : Fin 1024, V c main_v0 (ix2 (0 : Fin 1) k) = g (ix1 k))
  (hb : ∀ k : Fin 1024, V c main_v1 (ix2 (0 : Fin 1) k) = b (ix1 k))
  (hW : ∀ (k : Fin 1024) (e : Fin 64), V c main_v2 (ix2 k e) = W (ix2 e k))
  (hpb : ∀ e : Fin 64, V c main_v3 (ix2 (0 : Fin 1) e) = pb (ix1 e))
  (hod : ∀ (e : Fin 32) (z : Fin 128), V c main_v7 (ix2 e z) = ow (ix2 z (⟨32 + e.val, by omega⟩ : Fin 64)))

include hg hb hW hpb in
/-- The q block of point t at a block index y, when row l of the array is the block's row. -/
theorem q_point (t : Fin cfg0.N) (y : S1x128x32.Idx) (l : Fin 1024) (hl : l.val = t.val * 128 + (y 1).val)
    (d : Fin 32) (hd : (y 2).val = d.val) :
    k0_pay8 (iblk0 V c 0 t) (iblk0 V c 1 t) (iblk0 V c 2 t) (iblk0 V c 3 t) (iblk0 V c 4 t) y
      = qv (V c main_arg0) g b W pb l d :=
  q_spec (iblk0 V c 0 t) (iblk0 V c 1 t) (iblk0 V c 2 t) (iblk0 V c 3 t) (iblk0 V c 4 t) (V c main_arg0) g b W pb l y d hd
    (fun k => blk0_read V c t (y 1) k l hl) (fun k => (blk1_read V c t k).trans (hg k))
    (fun k => (blk2_read V c t k).trans (hb k)) (fun k e => (blk3_read V c t k e).trans (hW k e))
    (fun e => (blk4_read V c t e).trans (hpb e))

include hg hb hW hpb in
/-- The k block of point t at a block index y. -/
theorem k_point (t : Fin cfg0.N) (y : S1x128x32.Idx) (l : Fin 1024) (hl : l.val = t.val * 128 + (y 1).val)
    (d : Fin 32) (hd : (y 2).val = d.val) :
    k0_pay1 (k0_pay7 (iblk0 V c 0 t) (iblk0 V c 1 t) (iblk0 V c 2 t) (iblk0 V c 3 t) (iblk0 V c 4 t)) y
      = kv (V c main_arg0) g b W pb l d :=
  k_spec (iblk0 V c 0 t) (iblk0 V c 1 t) (iblk0 V c 2 t) (iblk0 V c 3 t) (iblk0 V c 4 t) (V c main_arg0) g b W pb l y d hd
    (fun k => blk0_read V c t (y 1) k l hl) (fun k => (blk1_read V c t k).trans (hg k))
    (fun k => (blk2_read V c t k).trans (hb k)) (fun k e => (blk3_read V c t k e).trans (hW k e))
    (fun e => (blk4_read V c t e).trans (hpb e))

include hg hb hW hpb hod in
/-- The block of q features against the second half weight, at a block index y. -/
theorem qd_point (t : Fin cfg0.N) (y : S1x128x128.Idx) (l : Fin 1024) (hl : l.val = t.val * 128 + (y 1).val)
    (z : Fin 128) (hz : (y 2).val = z.val) :
    k0_pay3 (k0_pay6 (iblk0 V c 0 t) (iblk0 V c 1 t) (iblk0 V c 2 t) (iblk0 V c 3 t) (iblk0 V c 4 t)) (iblk0 V c 5 t) y
      = half2 ow (qv (V c main_arg0) g b W pb) l z :=
  qd_spec (iblk0 V c 0 t) (iblk0 V c 1 t) (iblk0 V c 2 t) (iblk0 V c 3 t) (iblk0 V c 4 t) (iblk0 V c 5 t) (V c main_arg0) g b W pb ow
    l y z hz
    (fun k => blk0_read V c t (y 1) k l hl) (fun k => (blk1_read V c t k).trans (hg k))
    (fun k => (blk2_read V c t k).trans (hb k)) (fun k e => (blk3_read V c t k e).trans (hW k e))
    (fun e => (blk4_read V c t e).trans (hpb e)) (fun e z => (blk5_read V c t e z).trans (hod e z))

include hg hb hW hpb hod in
/-- The block of k features against the second half weight, at a block index y. -/
theorem kd_point (t : Fin cfg0.N) (y : S1x128x128.Idx) (l : Fin 1024) (hl : l.val = t.val * 128 + (y 1).val)
    (z : Fin 128) (hz : (y 2).val = z.val) :
    k0_pay4 (k0_pay7 (iblk0 V c 0 t) (iblk0 V c 1 t) (iblk0 V c 2 t) (iblk0 V c 3 t) (iblk0 V c 4 t)) (iblk0 V c 5 t) y
      = half2 ow (kv (V c main_arg0) g b W pb) l z :=
  kd_spec (iblk0 V c 0 t) (iblk0 V c 1 t) (iblk0 V c 2 t) (iblk0 V c 3 t) (iblk0 V c 4 t) (iblk0 V c 5 t) (V c main_arg0) g b W pb ow
    l y z hz
    (fun k => blk0_read V c t (y 1) k l hl) (fun k => (blk1_read V c t k).trans (hg k))
    (fun k => (blk2_read V c t k).trans (hb k)) (fun k e => (blk3_read V c t k e).trans (hW k e))
    (fun e => (blk4_read V c t e).trans (hpb e)) (fun e z => (blk5_read V c t e z).trans (hod e z))

include hg hb hW hpb in
/-- What point t writes back into the q array: the q features of its rows. -/
theorem flushed0_6_eq (t : Fin cfg0.N) :
    (dat0 V c).flushed 6 t = ((cfg0.win 6).blk t).view.read (Elt Ideal)
      (fun i : S1x1024x32.Idx => qv (V c main_arg0) g b W pb (i 1) (i 2)) := by
  show (cfg0.win 6).cut (grid0.coords t) ((dat0 V c).after 6 t) = _
  rw [after0_6]
  unfold out0_6
  rw [View.canon_unit_zero hz3]
  simp only [View.ld_unit_zero (S := S1x128x1024) hz3, View.ld_unit_zero (S := S1x1024) hz2,
    View.ld_unit_zero (S := S1024x64) hz2, View.ld_unit_zero (S := S1x64) hz2]
  funext y
  have ht := t_lt t
  obtain ⟨-, -, -, -, -, -, ⟨e0, e1, e2⟩, -⟩ := idx_facts t
  have hy1 : (y 1).val < 128 := (y 1).isLt
  have hl : t.val * 128 + (y 1).val < 1024 := by omega
  show k0_pay8 (iblk0 V c 0 t) (iblk0 V c 1 t) (iblk0 V c 2 t) (iblk0 V c 3 t) (iblk0 V c 4 t) y = _
  refine (q_point V c g b W pb hg hb hW hpb t y ⟨t.val * 128 + (y 1).val, hl⟩ rfl ⟨(y 2).val, (y 2).isLt⟩ rfl).trans ?_
  show _ = qv (V c main_arg0) g b W pb ((((cfg0.win 6).blk t).view.emb y) 1) ((((cfg0.win 6).blk t).view.emb y) 2)
  exact congrArg₂ (qv (V c main_arg0) g b W pb)
    (Fin.ext (by show t.val * 128 + (y 1).val = win0_6.index t (1 : Fin 3) * 128 + 1 * (y 1).val; omega))
    (Fin.ext (by show (y 2).val = win0_6.index t (2 : Fin 3) * 32 + 1 * (y 2).val; omega))

include hg hb hW hpb in
/-- What point t writes back into the k array: the k features of its rows. -/
theorem flushed0_7_eq (t : Fin cfg0.N) :
    (dat0 V c).flushed 7 t = ((cfg0.win 7).blk t).view.read (Elt Ideal)
      (fun i : S1x1024x32.Idx => kv (V c main_arg0) g b W pb (i 1) (i 2)) := by
  show (cfg0.win 7).cut (grid0.coords t) ((dat0 V c).after 7 t) = _
  rw [after0_7]
  unfold out0_7
  rw [View.canon_unit_zero hz3]
  simp only [View.ld_unit_zero (S := S1x128x1024) hz3, View.ld_unit_zero (S := S1x1024) hz2,
    View.ld_unit_zero (S := S1024x64) hz2, View.ld_unit_zero (S := S1x64) hz2]
  funext y
  have ht := t_lt t
  obtain ⟨-, -, -, -, -, -, -, ⟨e0, e1, e2⟩, -⟩ := idx_facts t
  have hy1 : (y 1).val < 128 := (y 1).isLt
  have hl : t.val * 128 + (y 1).val < 1024 := by omega
  show k0_pay1 (k0_pay7 (iblk0 V c 0 t) (iblk0 V c 1 t) (iblk0 V c 2 t) (iblk0 V c 3 t) (iblk0 V c 4 t)) y = _
  refine (k_point V c g b W pb hg hb hW hpb t y ⟨t.val * 128 + (y 1).val, hl⟩ rfl ⟨(y 2).val, (y 2).isLt⟩ rfl).trans ?_
  show _ = kv (V c main_arg0) g b W pb ((((cfg0.win 7).blk t).view.emb y) 1) ((((cfg0.win 7).blk t).view.emb y) 2)
  exact congrArg₂ (kv (V c main_arg0) g b W pb)
    (Fin.ext (by show t.val * 128 + (y 1).val = win0_7.index t (1 : Fin 3) * 128 + 1 * (y 1).val; omega))
    (Fin.ext (by show (y 2).val = win0_7.index t (2 : Fin 3) * 32 + 1 * (y 2).val; omega))

include hg hb hW hpb hod in
/-- What point t writes back into the third output: its rows' q features against the second half weight. -/
theorem flushed0_8_eq (t : Fin cfg0.N) :
    (dat0 V c).flushed 8 t = ((cfg0.win 8).blk t).view.read (Elt Ideal)
      (fun i : S1x1024x128.Idx => half2 ow (qv (V c main_arg0) g b W pb) (i 1) (i 2)) := by
  show (cfg0.win 8).cut (grid0.coords t) ((dat0 V c).after 8 t) = _
  rw [after0_8]
  unfold out0_8
  rw [View.canon_unit_zero hz3]
  simp only [View.ld_unit_zero (S := S1x128x1024) hz3, View.ld_unit_zero (S := S1x1024) hz2,
    View.ld_unit_zero (S := S1024x64) hz2, View.ld_unit_zero (S := S1x64) hz2, View.ld_unit_zero (S := S32x128) hz2]
  funext y
  have ht := t_lt t
  obtain ⟨-, -, -, -, -, -, -, -, ⟨e0, e1, e2⟩, -⟩ := idx_facts t
  have hy1 : (y 1).val < 128 := (y 1).isLt
  have hl : t.val * 128 + (y 1).val < 1024 := by omega
  show k0_pay3 (k0_pay6 (iblk0 V c 0 t) (iblk0 V c 1 t) (iblk0 V c 2 t) (iblk0 V c 3 t) (iblk0 V c 4 t)) (iblk0 V c 5 t) y = _
  refine (qd_point V c g b W pb ow hg hb hW hpb hod t y ⟨t.val * 128 + (y 1).val, hl⟩ rfl ⟨(y 2).val, (y 2).isLt⟩ rfl).trans ?_
  show _ = half2 ow (qv (V c main_arg0) g b W pb) ((((cfg0.win 8).blk t).view.emb y) 1) ((((cfg0.win 8).blk t).view.emb y) 2)
  exact congrArg₂ (half2 ow (qv (V c main_arg0) g b W pb))
    (Fin.ext (by show t.val * 128 + (y 1).val = win0_8.index t (1 : Fin 3) * 128 + 1 * (y 1).val; omega))
    (Fin.ext (by show (y 2).val = win0_8.index t (2 : Fin 3) * 128 + 1 * (y 2).val; omega))

include hg hb hW hpb hod in
/-- What point t writes back into the fourth output: its rows' k features against the second half weight. -/
theorem flushed0_9_eq (t : Fin cfg0.N) :
    (dat0 V c).flushed 9 t = ((cfg0.win 9).blk t).view.read (Elt Ideal)
      (fun i : S1x1024x128.Idx => half2 ow (kv (V c main_arg0) g b W pb) (i 1) (i 2)) := by
  show (cfg0.win 9).cut (grid0.coords t) ((dat0 V c).after 9 t) = _
  rw [after0_9]
  unfold out0_9
  rw [View.canon_unit_zero hz3]
  simp only [View.ld_unit_zero (S := S1x128x1024) hz3, View.ld_unit_zero (S := S1x1024) hz2,
    View.ld_unit_zero (S := S1024x64) hz2, View.ld_unit_zero (S := S1x64) hz2, View.ld_unit_zero (S := S32x128) hz2]
  funext y
  have ht := t_lt t
  obtain ⟨-, -, -, -, -, -, -, -, -, ⟨e0, e1, e2⟩⟩ := idx_facts t
  have hy1 : (y 1).val < 128 := (y 1).isLt
  have hl : t.val * 128 + (y 1).val < 1024 := by omega
  show k0_pay4 (k0_pay7 (iblk0 V c 0 t) (iblk0 V c 1 t) (iblk0 V c 2 t) (iblk0 V c 3 t) (iblk0 V c 4 t)) (iblk0 V c 5 t) y = _
  refine (kd_point V c g b W pb ow hg hb hW hpb hod t y ⟨t.val * 128 + (y 1).val, hl⟩ rfl ⟨(y 2).val, (y 2).isLt⟩ rfl).trans ?_
  show _ = half2 ow (kv (V c main_arg0) g b W pb) ((((cfg0.win 9).blk t).view.emb y) 1) ((((cfg0.win 9).blk t).view.emb y) 2)
  exact congrArg₂ (half2 ow (kv (V c main_arg0) g b W pb))
    (Fin.ext (by show t.val * 128 + (y 1).val = win0_9.index t (1 : Fin 3) * 128 + 1 * (y 1).val; omega))
    (Fin.ext (by show (y 2).val = win0_9.index t (2 : Fin 3) * 128 + 1 * (y 2).val; omega))

/-! ## The four arrays after the region -/

include hg hb hW hpb in
theorem final0_6 : (dat0 V c).arrAt 6 cfg0.N = fun i : S1x1024x32.Idx => qv (V c main_arg0) g b W pb (i 1) (i 2) :=
  (dat0 V c).arrAt_eq_of_cover 6 _ (fun t _ => flushed0_6_eq V c g b W pb hg hb hW hpb t) Cover.cover0_6

include hg hb hW hpb in
theorem final0_7 : (dat0 V c).arrAt 7 cfg0.N = fun i : S1x1024x32.Idx => kv (V c main_arg0) g b W pb (i 1) (i 2) :=
  (dat0 V c).arrAt_eq_of_cover 7 _ (fun t _ => flushed0_7_eq V c g b W pb hg hb hW hpb t) Cover.cover0_7

include hg hb hW hpb hod in
theorem final0_8 : (dat0 V c).arrAt 8 cfg0.N
    = fun i : S1x1024x128.Idx => half2 ow (qv (V c main_arg0) g b W pb) (i 1) (i 2) :=
  (dat0 V c).arrAt_eq_of_cover 8 _ (fun t _ => flushed0_8_eq V c g b W pb ow hg hb hW hpb hod t) Cover.cover0_8

include hg hb hW hpb hod in
theorem final0_9 : (dat0 V c).arrAt 9 cfg0.N
    = fun i : S1x1024x128.Idx => half2 ow (kv (V c main_arg0) g b W pb) (i 1) (i 2) :=
  (dat0 V c).arrAt_eq_of_cover 9 _ (fun t _ => flushed0_9_eq V c g b W pb ow hg hb hW hpb hod t) Cover.cover0_9

end Prepared

end Cert.KernelIdeal.Stage1

end
-- ==== Proof.K1Pay.lean ====
/-
  The pairwise body read at an index.

  The body loads a block of 128 rows of q features and a block of 128 rows of k features (32 each), the two blocks of
  those rows against the second half of the output weight (128 outputs each), the transposed first half of the output
  weight (32 × 128) and the output bias as a 1 × 128 row. At (a, b, z) its result is the 32 products of row b's q
  and row a's k features against column z of the first half weight, plus row b's q block entry, minus row a's k block
  entry, plus the bias: the split form of the specification when the blocks are those of the rows j and i.
-/
import proofs.«162133_j3453153706645_2_alg».proof.Proof.Gen.KernelIdeal.Skeleton
import proofs.«162133_j3453153706645_2_alg».proof.Proof.Spec
import proofs.«162133_j3453153706645_2_alg».proof.Proof.LibPlainDot
import proofs.«162133_j3453153706645_2_alg».proof.Proof.LibUnitAxis
import proofs.«162133_j3453153706645_2_alg».proof.Proof.LibMergeRows
import proofs.«162133_j3453153706645_2_alg».proof.Proof.LibRowBroadcasts
import Idealize.ShloMosaic.Lib.Pipeline.Value
import Idealize.ShloMosaic.Lib.ValueIdx
import Idealize.ShloMosaic.PureOps.Ideal.Laws

noncomputable section

namespace Cert.KernelIdeal.Stage2

open Cert.KernelIdeal Cert.KernelIdeal.Gen Idealize.ShloMosaic Idealize.ShloMosaic.TcCoe Idealize.ShloMosaic.ValueIdx Cert.PairSpec
open scoped BigOperators

/-! ## The layout operations of the body, each at an index -/

/-- The 16384 flat rows are the 128 × 128 grid of pairs. -/
theorem flat_rows : (16384 : Nat) = 128 * 128 := by norm_num

section Layout
variable {α : Type}

/-- The q rows broadcast over the first axis read row b. -/
theorem q_bcast (v : S1x128x32.Idx → α) (h : S1x128x32.Broadcasts S128x128x32) (a b : Fin 128) (d : Fin 32) :
    broadcastTo S128x128x32 v h (ix3 a b d) = v (ix3 (0 : Fin 1) b d) :=
  broadcastTo_apply v h _ _ (fun x => by match x with | ⟨0, _⟩ => rfl | ⟨1, _⟩ => rfl | ⟨2, _⟩ => rfl)

/-- The k rows given a unit middle axis read the row. -/
theorem k_mid (v : S128x32.Idx → α) (h : S128x32.ShapeCasts S128x1x32) (a : Fin 128) (d : Fin 32) :
    shapeCast S128x1x32 v h (ix3 a (0 : Fin 1) d) = v (ix2 a d) :=
  shapeCast_apply v h _ _ (by
    rw [Shape.rowMajor_val_two, Shape.rowMajor_val_three]
    show a.val * 32 + d.val = (a.val * 1 + 0) * 32 + d.val
    omega)

/-- The k rows broadcast over the second axis read row a. -/
theorem k_bcast (v : S128x1x32.Idx → α) (h : S128x1x32.Broadcasts S128x128x32) (a b : Fin 128) (d : Fin 32) :
    broadcastTo S128x128x32 v h (ix3 a b d) = v (ix3 a (0 : Fin 1) d) :=
  broadcastTo_apply v h _ _ (fun x => by match x with | ⟨0, _⟩ => rfl | ⟨1, _⟩ => rfl | ⟨2, _⟩ => rfl)

/-- The q block broadcast over the first axis reads row b. -/
theorem qd_bcast (v : S1x128x128.Idx → α) (h : S1x128x128.Broadcasts S128x128x128) (a b z : Fin 128) :
    broadcastTo S128x128x128 v h (ix3 a b z) = v (ix3 (0 : Fin 1) b z) :=
  broadcastTo_apply v h _ _ (fun x => by match x with | ⟨0, _⟩ => rfl | ⟨1, _⟩ => rfl | ⟨2, _⟩ => rfl)

/-- The k block given a unit middle axis reads the row. -/
theorem kd_mid (v : S128x128.Idx → α) (h : S128x128.ShapeCasts S128x1x128) (a z : Fin 128) :
    shapeCast S128x1x128 v h (ix3 a (0 : Fin 1) z) = v (ix2 a z) :=
  shapeCast_apply v h _ _ (by
    rw [Shape.rowMajor_val_two, Shape.rowMajor_val_three]
    show a.val * 128 + z.val = (a.val * 1 + 0) * 128 + z.val
    omega)

/-- The k block broadcast over the second axis reads row a. -/
theorem kd_bcast (v : S128x1x128.Idx → α) (h : S128x1x128.Broadcasts S128x128x128) (a b z : Fin 128) :
    broadcastTo S128x128x128 v h (ix3 a b z) = v (ix3 a (0 : Fin 1) z) :=
  broadcastTo_apply v h _ _ (fun x => by match x with | ⟨0, _⟩ => rfl | ⟨1, _⟩ => rfl | ⟨2, _⟩ => rfl)

/-- The bias row given a unit middle axis reads the row. -/
theorem bias_mid (v : S1x128.Idx → α) (h : S1x128.ShapeCasts S1x1x128) (z : Fin 128) :
    shapeCast S1x1x128 v h (ix3 (0 : Fin 1) (0 : Fin 1) z) = v (ix2 (0 : Fin 1) z) :=
  shapeCast_apply v h _ _ (by
    rw [Shape.rowMajor_val_two, Shape.rowMajor_val_three]
    show 0 * 128 + z.val = (0 * 1 + 0) * 128 + z.val
    omega)

/-- The bias row broadcast over both leading axes reads the row at the output. -/
theorem bias_bcast (v : S1x1x128.Idx → α) (h : S1x1x128.Broadcasts S128x128x128) (a b z : Fin 128) :
    broadcastTo S128x128x128 v h (ix3 a b z) = v (ix3 (0 : Fin 1) (0 : Fin 1) z) :=
  broadcastTo_apply v h _ _ (fun x => by match x with | ⟨0, _⟩ => rfl | ⟨1, _⟩ => rfl | ⟨2, _⟩ => rfl)

/-- The pair grid of 32-feature rows as 16384 flat rows. -/
theorem merge3 (v : S128x128x32.Idx → α) (h : S128x128x32.ShapeCasts S16384x32) (a b : Fin 128) (d : Fin 32) :
    shapeCast S16384x32 v h (ix2 (Cert.Lib.MergeRows.flatRow flat_rows a b) d) = v (ix3 a b d) :=
  Cert.Lib.MergeRows.merge_apply flat_rows v h a b d

/-- The 16384 flat rows of 128 outputs as the pair grid. -/
theorem split3 (v : S16384x128.Idx → α) (h : S16384x128.ShapeCasts S128x128x128) (a b z : Fin 128) :
    shapeCast S128x128x128 v h (ix3 a b z) = v (ix2 (Cert.Lib.MergeRows.flatRow flat_rows a b) z) :=
  Cert.Lib.MergeRows.split_apply flat_rows v h a b z

/-- A leading unit axis on the pair grid. -/
theorem add4 (v : S128x128x128.Idx → α) (h : S128x128x128.ShapeCasts S1x128x128x128) (u : Fin 1) (a b z : Fin 128) :
    shapeCast S1x128x128x128 v h (ix4 u a b z) = v (ix3 a b z) :=
  shapeCast_apply v h _ _ (by
    have hu : u.val = 0 := by omega
    rw [Shape.rowMajor_val_three, Shape.rowMajor_val_four]
    show (a.val * 128 + b.val) * 128 + z.val = ((u.val * 128 + a.val) * 128 + b.val) * 128 + z.val
    rw [hu]
    omega)

end Layout

/-- The flat rows of products against the transposed first half weight. -/
theorem pair_mm (l : FVec Ideal S16384x32 .bf16) (w : FVec Ideal S32x128 .bf16) (p : Fin 16384) (z : Fin 128) :
    matmul dot_S16384x32_S32x128_S16384x128_1_0_0_1_n_n none l w (constant S16384x128 .f32 0x00000000#32) (ix2 p z)
      = ∑ d : Fin 32, l (ix2 p d) * w (ix2 d z) :=
  Cert.Lib.PlainDot.matmul_zero_apply dot_S16384x32_S32x128_S16384x128_1_0_0_1_n_n.wf none l w p z

/-! ## The body at an index -/

section Block
variable (x0 x1 : Vec Ideal S1x128x32 .f32) (x2 x3 : Vec Ideal S1x128x128 .f32) (x4 : Vec Ideal S32x128 .f32)
  (x5 : Vec Ideal S1x128 .f32)

/-- The body's result at (a, b, z), in the loaded blocks. -/
theorem pay1_apply (u : Fin 1) (a b z : Fin 128) :
    k1_pay1 x0 x1 x2 x3 x4 x5 (ix4 u a b z)
      = (∑ d : Fin 32, (x0 (ix3 (0 : Fin 1) b d) * x1 (ix3 (0 : Fin 1) a d)) * x4 (ix2 d z))
          + x2 (ix3 (0 : Fin 1) b z) - x3 (ix3 (0 : Fin 1) a z) + x5 (ix2 (0 : Fin 1) z) := by
  unfold k1_pay1
  simp only [add4, addf_apply, subf_apply, mulf_apply, truncf_apply, shapeCast_self, bias_bcast, bias_mid, kd_bcast,
    kd_mid, qd_bcast, Cert.Lib.UnitAxis.drop_apply, Cert.Lib.UnitAxis.add_apply, split3, pair_mm, merge3, q_bcast,
    k_bcast, k_mid]

end Block

/-! ## The body against the specification -/

/-- When the block rows read at the index's coordinates are the q features of row j and the k features of row i,
    their blocks against the second half weight, and the weight and bias are those of the arguments, the body's
    result is the split form at (i, j, z). -/
theorem pair_spec (x0 x1 : Vec Ideal S1x128x32 .f32) (x2 x3 : Vec Ideal S1x128x128 .f32) (x4 : Vec Ideal S32x128 .f32)
    (x5 : Vec Ideal S1x128 .f32) (q k : Fin 1024 → Fin 32 → EReal) (ow : S128x64.Idx → EReal) (ob : S128.Idx → EReal)
    (i j : Fin 1024) (z : Fin 128) (y : S1x128x128x128.Idx) (hz : (y 3).val = z.val)
    (hq : ∀ d : Fin 32, x0 (ix3 (0 : Fin 1) (y 2) d) = q j d) (hk : ∀ d : Fin 32, x1 (ix3 (0 : Fin 1) (y 1) d) = k i d)
    (hqd : ∀ w : Fin 128, x2 (ix3 (0 : Fin 1) (y 2) w) = Cert.PairSpec.half2 ow q j w)
    (hkd : ∀ w : Fin 128, x3 (ix3 (0 : Fin 1) (y 1) w) = Cert.PairSpec.half2 ow k i w)
    (hop : ∀ (d : Fin 32) (w : Fin 128), x4 (ix2 d w) = ow (ix2 w (⟨d.val, by omega⟩ : Fin 64)))
    (hob : ∀ w : Fin 128, x5 (ix2 (0 : Fin 1) w) = ob (ix1 w)) :
    k1_pay1 x0 x1 x2 x3 x4 x5 y = Cert.PairSpec.outSplit q k ow ob i j z := by
  obtain ⟨u, a, b, e, rfl⟩ : ∃ (u : Fin 1) (a b e : Fin 128), y = ix4 u a b e := ⟨y 0, y 1, y 2, y 3, eq_ix4 y⟩
  obtain rfl : e = z := Fin.ext hz
  have hq' : ∀ d : Fin 32, x0 (ix3 (0 : Fin 1) b d) = q j d := hq
  have hk' : ∀ d : Fin 32, x1 (ix3 (0 : Fin 1) a d) = k i d := hk
  have hqd' : ∀ w : Fin 128, x2 (ix3 (0 : Fin 1) b w) = Cert.PairSpec.half2 ow q j w := hqd
  have hkd' : ∀ w : Fin 128, x3 (ix3 (0 : Fin 1) a w) = Cert.PairSpec.half2 ow k i w := hkd
  rw [pay1_apply]
  unfold Cert.PairSpec.outSplit
  simp only [hq', hk', hqd', hkd', hop, hob]

end Cert.KernelIdeal.Stage2

end
-- ==== Proof.KStage2.lean ====
/-
  The pairwise region: what each grid point writes back.

  Grid point t works on the pair of row blocks (t / 8, t % 8): its q block and its q block against the second half
  of the output weight are rows 128·(t % 8) … of their arrays, its k block and its k block against the second half
  weight are rows 128·(t / 8) … of theirs, and the first half weight and the bias row are the whole prepared arrays.
  So what it writes back into the output array at (128·(t / 8) + a, 128·(t % 8) + b, z) is the split form of the
  specification at that index.
-/
import proofs.«162133_j3453153706645_2_alg».proof.Proof.Gen.KernelIdeal.Frame
import proofs.«162133_j3453153706645_2_alg».proof.Proof.K1Pay
import proofs.«162133_j3453153706645_2_alg».proof.Proof.KCover

set_option maxRecDepth 16384

noncomputable section

namespace Cert.KernelIdeal.Stage2

open Cert.KernelIdeal Cert.KernelIdeal.Gen Idealize.ShloMosaic Idealize.ShloMosaic.TcCoe Idealize.ShloMosaic.ValueIdx Cert.PairSpec
open Idealize.SL.Sem
open Idealize.ShloMosaic.Pipeline (Dat Cfg Window)

variable (V : (c : Dev nD) → (b : Ref sig .tc) → Buf (Elt Ideal) ((c : Thread nD τ).loc b)) (c : Dev nD)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

theorem t_lt (t : Fin cfg1.N) : t.val < 64 := by
  have h := t.isLt
  have hN : cfg1.N = 64 := N_1
  omega

/-- The q block at point t, row r: row 128·(t % 8) + r of the q array. -/
theorem blk0_read (t : Fin cfg1.N) (r : Fin 128) (d : Fin 32) (l : Fin 1024) (hl : l.val = (t.val % 8) * 128 + r.val) :
    iblk1 V c 0 t (ix3 (0 : Fin 1) r d) = V c main_v9_0 (ix3 (0 : Fin 1) l d) := by
  have hw := (Cover.idx1_divmod t).1
  have e0 : win1_0.index t (0 : Fin 3) = 0 := congrFun hw 0
  have e1 : win1_0.index t (1 : Fin 3) = t.val % 8 := congrFun hw 1
  have e2 : win1_0.index t (2 : Fin 3) = 0 := congrFun hw 2
  show V c main_v9_0 (((cfg1.win 0).blk t).view.emb (ix3 (0 : Fin 1) r d)) = _
  refine congrArg (V c main_v9_0) (funext fun a => Fin.ext ?_)
  match a with
  | ⟨0, _⟩ => show win1_0.index t (0 : Fin 3) * 1 + 1 * 0 = 0; omega
  | ⟨1, _⟩ => show win1_0.index t (1 : Fin 3) * 128 + 1 * r.val = l.val; omega
  | ⟨2, _⟩ => show win1_0.index t (2 : Fin 3) * 32 + 1 * d.val = d.val; omega

/-- The k block at point t, row r: row 128·(t / 8) + r of the k array. -/
theorem blk1_read (t : Fin cfg1.N) (r : Fin 128) (d : Fin 32) (l : Fin 1024) (hl : l.val = (t.val / 8) * 128 + r.val) :
    iblk1 V c 1 t (ix3 (0 : Fin 1) r d) = V c main_v9_1 (ix3 (0 : Fin 1) l d) := by
  have hw := (Cover.idx1_divmod t).2.1
  have e0 : win1_1.index t (0 : Fin 3) = 0 := congrFun hw 0
  have e1 : win1_1.index t (1 : Fin 3) = t.val / 8 := congrFun hw 1
  have e2 : win1_1.index t (2 : Fin 3) = 0 := congrFun hw 2
  show V c main_v9_1 (((cfg1.win 1).blk t).view.emb (ix3 (0 : Fin 1) r d)) = _
  refine congrArg (V c main_v9_1) (funext fun a => Fin.ext ?_)
  match a with
  | ⟨0, _⟩ => show win1_1.index t (0 : Fin 3) * 1 + 1 * 0 = 0; omega
  | ⟨1, _⟩ => show win1_1.index t (1 : Fin 3) * 128 + 1 * r.val = l.val; omega
  | ⟨2, _⟩ => show win1_1.index t (2 : Fin 3) * 32 + 1 * d.val = d.val; omega

/-- The block of q rows against the second half weight: rows 128·(t % 8) + r. -/
theorem blk2_read (t : Fin cfg1.N) (r : Fin 128) (w : Fin 128) (l : Fin 1024) (hl : l.val = (t.val % 8) * 128 + r.val) :
    iblk1 V c 2 t (ix3 (0 : Fin 1) r w) = V c main_v9_2 (ix3 (0 : Fin 1) l w) := by
  have hw := (Cover.idx1_divmod t).2.2.1
  have e0 : win1_2.index t (0 : Fin 3) = 0 := congrFun hw 0
  have e1 : win1_2.index t (1 : Fin 3) = t.val % 8 := congrFun hw 1
  have e2 : win1_2.index t (2 : Fin 3) = 0 := congrFun hw 2
  show V c main_v9_2 (((cfg1.win 2).blk t).view.emb (ix3 (0 : Fin 1) r w)) = _
  refine congrArg (V c main_v9_2) (funext fun a => Fin.ext ?_)
  match a with
  | ⟨0, _⟩ => show win1_2.index t (0 : Fin 3) * 1 + 1 * 0 = 0; omega
  | ⟨1, _⟩ => show win1_2.index t (1 : Fin 3) * 128 + 1 * r.val = l.val; omega
  | ⟨2, _⟩ => show win1_2.index t (2 : Fin 3) * 128 + 1 * w.val = w.val; omega

/-- The block of k rows against the second half weight: rows 128·(t / 8) + r. -/
theorem blk3_read (t : Fin cfg1.N) (r : Fin 128) (w : Fin 128) (l : Fin 1024) (hl : l.val = (t.val / 8) * 128 + r.val) :
    iblk1 V c 3 t (ix3 (0 : Fin 1) r w) = V c main_v9_3 (ix3 (0 : Fin 1) l w) := by
  have hw := (Cover.idx1_divmod t).2.2.2.1
  have e0 : win1_3.index t (0 : Fin 3) = 0 := congrFun hw 0
  have e1 : win1_3.index t (1 : Fin 3) = t.val / 8 := congrFun hw 1
  have e2 : win1_3.index t (2 : Fin 3) = 0 := congrFun hw 2
  show V c main_v9_3 (((cfg1.win 3).blk t).view.emb (ix3 (0 : Fin 1) r w)) = _
  refine congrArg (V c main_v9_3) (funext fun a => Fin.ext ?_)
  match a with
  | ⟨0, _⟩ => show win1_3.index t (0 : Fin 3) * 1 + 1 * 0 = 0; omega
  | ⟨1, _⟩ => show win1_3.index t (1 : Fin 3) * 128 + 1 * r.val = l.val; omega
  | ⟨2, _⟩ => show win1_3.index t (2 : Fin 3) * 128 + 1 * w.val = w.val; omega

/-- The first-half-weight block is the whole transposed first half of the output weight. -/
theorem blk4_read (t : Fin cfg1.N) (d : Fin 32) (w : Fin 128) :
    iblk1 V c 4 t (ix2 d w) = V c main_v5 (ix2 d w) := by
  have hw := (Cover.idx1_divmod t).2.2.2.2.1
  have e0 : win1_4.index t (0 : Fin 2) = 0 := congrFun hw 0
  have e1 : win1_4.index t (1 : Fin 2) = 0 := congrFun hw 1
  show V c main_v5 (((cfg1.win 4).blk t).view.emb (ix2 d w)) = _
  refine congrArg (V c main_v5) (funext fun a => Fin.ext ?_)
  match a with
  | ⟨0, _⟩ => show win1_4.index t (0 : Fin 2) * 32 + 1 * d.val = d.val; omega
  | ⟨1, _⟩ => show win1_4.index t (1 : Fin 2) * 128 + 1 * w.val = w.val; omega

/-- The bias block is the whole prepared bias row. -/
theorem blk5_read (t : Fin cfg1.N) (w : Fin 128) :
    iblk1 V c 5 t (ix2 (0 : Fin 1) w) = V c main_v8 (ix2 (0 : Fin 1) w) := by
  have hw := (Cover.idx1_divmod t).2.2.2.2.2.1
  have e0 : win1_5.index t (0 : Fin 2) = 0 := congrFun hw 0
  have e1 : win1_5.index t (1 : Fin 2) = 0 := congrFun hw 1
  show V c main_v8 (((cfg1.win 5).blk t).view.emb (ix2 (0 : Fin 1) w)) = _
  refine congrArg (V c main_v8) (funext fun a => Fin.ext ?_)
  match a with
  | ⟨0, _⟩ => show win1_5.index t (0 : Fin 2) * 1 + 1 * 0 = 0; omega
  | ⟨1, _⟩ => show win1_5.index t (1 : Fin 2) * 128 + 1 * w.val = w.val; omega

section Prepared
variable (q k : Fin 1024 → Fin 32 → EReal) (ow : S128x64.Idx → EReal) (ob : S128.Idx → EReal)
variable (hq : ∀ (l : Fin 1024) (d : Fin 32), V c main_v9_0 (ix3 (0 : Fin 1) l d) = q l d)
  (hk : ∀ (l : Fin 1024) (d : Fin 32), V c main_v9_1 (ix3 (0 : Fin 1) l d) = k l d)
  (hqd : ∀ (l : Fin 1024) (w : Fin 128), V c main_v9_2 (ix3 (0 : Fin 1) l w) = Cert.PairSpec.half2 ow q l w)
  (hkd : ∀ (l : Fin 1024) (w : Fin 128), V c main_v9_3 (ix3 (0 : Fin 1) l w) = Cert.PairSpec.half2 ow k l w)
  (hop : ∀ (d : Fin 32) (w : Fin 128), V c main_v5 (ix2 d w) = ow (ix2 w (⟨d.val, by omega⟩ : Fin 64)))
  (hob : ∀ w : Fin 128, V c main_v8 (ix2 (0 : Fin 1) w) = ob (ix1 w))

include hq hk hqd hkd hop hob in
/-- The body's result at point t and block index y, when rows i and j of the arrays are the blocks' rows. -/
theorem pair_point (t : Fin cfg1.N) (y : S1x128x128x128.Idx) (i j : Fin 1024)
    (hi : i.val = (t.val / 8) * 128 + (y 1).val) (hj : j.val = (t.val % 8) * 128 + (y 2).val)
    (z : Fin 128) (hz : (y 3).val = z.val) :
    k1_pay1 (iblk1 V c 0 t) (iblk1 V c 1 t) (iblk1 V c 2 t) (iblk1 V c 3 t) (iblk1 V c 4 t) (iblk1 V c 5 t) y = outSplit q k ow ob i j z :=
  pair_spec (iblk1 V c 0 t) (iblk1 V c 1 t) (iblk1 V c 2 t) (iblk1 V c 3 t) (iblk1 V c 4 t) (iblk1 V c 5 t) q k ow ob i j z y hz
    (fun d => (blk0_read V c t (y 2) d j hj).trans (hq j d))
    (fun d => (blk1_read V c t (y 1) d i hi).trans (hk i d))
    (fun w => (blk2_read V c t (y 2) w j hj).trans (hqd j w))
    (fun w => (blk3_read V c t (y 1) w i hi).trans (hkd i w))
    (fun d w => (blk4_read V c t d w).trans (hop d w))
    (fun w => (blk5_read V c t w).trans (hob w))

include hq hk hqd hkd hop hob in
/-- What point t writes back into the output array: the split form at its pairs of rows. -/
theorem flushed1_6_eq (t : Fin cfg1.N) :
    (dat1 V c).flushed 6 t = ((cfg1.win 6).blk t).view.read (Elt Ideal)
      (fun i : S1x1024x1024x128.Idx => Cert.PairSpec.outSplit q k ow ob (i 1) (i 2) (i 3)) := by
  show (cfg1.win 6).cut (grid1.coords t) ((dat1 V c).after 6 t) = _
  rw [after1_6]
  unfold out1_6
  rw [View.canon_unit_zero hz4]
  simp only [View.ld_unit_zero (S := S1x128x32) hz3, View.ld_unit_zero (S := S1x128x128) hz3,
    View.ld_unit_zero (S := S32x128) hz2, View.ld_unit_zero (S := S1x128) hz2]
  funext y
  have ht := t_lt t
  have h6 := (Cover.idx1_divmod t).2.2.2.2.2.2
  have e0 : win1_6.index t (0 : Fin 4) = 0 := congrFun h6 0
  have e1 : win1_6.index t (1 : Fin 4) = t.val / 8 := congrFun h6 1
  have e2 : win1_6.index t (2 : Fin 4) = t.val % 8 := congrFun h6 2
  have e3 : win1_6.index t (3 : Fin 4) = 0 := congrFun h6 3
  have hy1 : (y 1).val < 128 := (y 1).isLt
  have hy2 : (y 2).val < 128 := (y 2).isLt
  have hi : (t.val / 8) * 128 + (y 1).val < 1024 := by omega
  have hj : (t.val % 8) * 128 + (y 2).val < 1024 := by omega
  show k1_pay1 (iblk1 V c 0 t) (iblk1 V c 1 t) (iblk1 V c 2 t) (iblk1 V c 3 t) (iblk1 V c 4 t) (iblk1 V c 5 t) y = _
  refine (pair_point V c q k ow ob hq hk hqd hkd hop hob t y ⟨(t.val / 8) * 128 + (y 1).val, hi⟩
    ⟨(t.val % 8) * 128 + (y 2).val, hj⟩ rfl rfl ⟨(y 3).val, (y 3).isLt⟩ rfl).trans ?_
  show _ = outSplit q k ow ob ((((cfg1.win 6).blk t).view.emb y) 1) ((((cfg1.win 6).blk t).view.emb y) 2)
    ((((cfg1.win 6).blk t).view.emb y) 3)
  have ei : (⟨(t.val / 8) * 128 + (y 1).val, hi⟩ : Fin 1024) = (((cfg1.win 6).blk t).view.emb y) 1 :=
    Fin.ext (by show (t.val / 8) * 128 + (y 1).val = win1_6.index t (1 : Fin 4) * 128 + 1 * (y 1).val; omega)
  have ej : (⟨(t.val % 8) * 128 + (y 2).val, hj⟩ : Fin 1024) = (((cfg1.win 6).blk t).view.emb y) 2 :=
    Fin.ext (by show (t.val % 8) * 128 + (y 2).val = win1_6.index t (2 : Fin 4) * 128 + 1 * (y 2).val; omega)
  have ez : (⟨(y 3).val, (y 3).isLt⟩ : Fin 128) = (((cfg1.win 6).blk t).view.emb y) 3 :=
    Fin.ext (by show (y 3).val = win1_6.index t (3 : Fin 4) * 128 + 1 * (y 3).val; omega)
  exact congr (congrArg₂ (outSplit q k ow ob) ei ej) ez

include hq hk hqd hkd hop hob in
/-- After the whole grid the output array is the split form everywhere. -/
theorem final1_6 :
    (dat1 V c).arrAt 6 cfg1.N
      = fun i : S1x1024x1024x128.Idx => Cert.PairSpec.outSplit q k ow ob (i 1) (i 2) (i 3) :=
  (dat1 V c).arrAt_eq_of_cover 6 _ (fun t _ => flushed1_6_eq V c q k ow ob hq hk hqd hkd hop hob t) Cover.cover1_6

end Prepared

end Cert.KernelIdeal.Stage2

end
-- ==== Proof.KWhole.lean ====
/-
  The idealized kernel's result as one function of the argument arrays.

  The first region fills four arrays from the argument arrays prepared by the host operations: the q and k features
  of every row, and their products with the second half of the output weight. The second region reads those four
  arrays, the transposed first half of the output weight and the bias row (both untouched by the first region), and
  fills the result with the split form of the pairwise output.
-/
import proofs.«162133_j3453153706645_2_alg».proof.Proof.KRun
import proofs.«162133_j3453153706645_2_alg».proof.Proof.KHost
import proofs.«162133_j3453153706645_2_alg».proof.Proof.KStage1
import proofs.«162133_j3453153706645_2_alg».proof.Proof.KStage2

set_option maxRecDepth 16384

noncomputable section

namespace Cert.KernelIdeal.Whole

open Cert.KernelIdeal Cert.KernelIdeal.Gen Idealize.ShloMosaic Idealize.ShloMosaic.TcCoe Idealize.ShloMosaic.ValueIdx Cert.PairSpec
open Idealize.SL.Sem

variable (m : (ℓ : Loc nD τ sig) → Buf (Elt Ideal) ℓ) (ρ : Dev nD → PrngReg)

/-- The q features of every row, of the argument arrays on core c. -/
abbrev qOf (c : Dev nD) : Fin 1024 → Fin 32 → EReal :=
  qv (m ((c : Thread nD τ).loc main_arg0)) (m ((c : Thread nD τ).loc main_arg1)) (m ((c : Thread nD τ).loc main_arg2))
    (m ((c : Thread nD τ).loc main_arg3)) (m ((c : Thread nD τ).loc main_arg4))

/-- The k features of every row. -/
abbrev kOf (c : Dev nD) : Fin 1024 → Fin 32 → EReal :=
  kv (m ((c : Thread nD τ).loc main_arg0)) (m ((c : Thread nD τ).loc main_arg1)) (m ((c : Thread nD τ).loc main_arg2))
    (m ((c : Thread nD τ).loc main_arg3)) (m ((c : Thread nD τ).loc main_arg4))

/-- The pairwise output in the split form, of the argument arrays on core c. -/
def result (c : Dev nD) : S1x1024x1024x128.Idx → EReal := fun i =>
  outSplit (qOf m c) (kOf m c) (m ((c : Thread nD τ).loc main_arg5)) (m ((c : Thread nD τ).loc main_arg6)) (i 1) (i 2) (i 3)

/-- What the second region leaves in the result buffer is that function. -/
theorem W3_out (c : Dev nD) : W3 m ρ c (Proc.devRef .tc main_v10) = result m c := by
  have hg := HostPart.v0_apply m ρ c
  have hb := HostPart.v1_apply m ρ c
  have hW := HostPart.v2_apply m ρ c
  have hpb := HostPart.v3_apply m ρ c
  have hod := HostPart.v7_apply m ρ c
  have h6 := Stage1.final0_6 (V1 m ρ) c _ _ _ _ hg hb hW hpb
  have h7 := Stage1.final0_7 (V1 m ρ) c _ _ _ _ hg hb hW hpb
  have h8 := Stage1.final0_8 (V1 m ρ) c _ _ _ _ _ hg hb hW hpb hod
  have h9 := Stage1.final0_9 (V1 m ρ) c _ _ _ _ _ hg hb hW hpb hod
  rw [HostPart.arg0_eq] at h6 h7 h8 h9
  have hq : ∀ (l : Fin 1024) (d : Fin 32), V2 m ρ c main_v9_0 (ix3 (0 : Fin 1) l d) = qOf m c l d :=
    fun l d => congrFun ((W2_arr m ρ c 6).trans h6) (ix3 (0 : Fin 1) l d)
  have hk : ∀ (l : Fin 1024) (d : Fin 32), V2 m ρ c main_v9_1 (ix3 (0 : Fin 1) l d) = kOf m c l d :=
    fun l d => congrFun ((W2_arr m ρ c 7).trans h7) (ix3 (0 : Fin 1) l d)
  have hqd : ∀ (l : Fin 1024) (w : Fin 128), V2 m ρ c main_v9_2 (ix3 (0 : Fin 1) l w)
      = half2 (m ((c : Thread nD τ).loc main_arg5)) (qOf m c) l w :=
    fun l w => congrFun ((W2_arr m ρ c 8).trans h8) (ix3 (0 : Fin 1) l w)
  have hkd : ∀ (l : Fin 1024) (w : Fin 128), V2 m ρ c main_v9_3 (ix3 (0 : Fin 1) l w)
      = half2 (m ((c : Thread nD τ).loc main_arg5)) (kOf m c) l w :=
    fun l w => congrFun ((W2_arr m ρ c 9).trans h9) (ix3 (0 : Fin 1) l w)
  have hop : ∀ (d : Fin 32) (w : Fin 128), V2 m ρ c main_v5 (ix2 d w)
      = m ((c : Thread nD τ).loc main_arg5) (ix2 w (⟨d.val, by omega⟩ : Fin 64)) :=
    fun d w => (congrFun (W2_of_ne m ρ c main_v5 (by decide)) _).trans (HostPart.v5_apply m ρ c d w)
  have hob : ∀ w : Fin 128, V2 m ρ c main_v8 (ix2 (0 : Fin 1) w) = m ((c : Thread nD τ).loc main_arg6) (ix1 w) :=
    fun w => (congrFun (W2_of_ne m ρ c main_v8 (by decide)) _).trans (HostPart.v8_apply m ρ c w)
  exact (W3_arr m ρ c 6).trans (Stage2.final1_6 (V2 m ρ) c (qOf m c) (kOf m c) (m ((c : Thread nD τ).loc main_arg5))
    (m ((c : Thread nD τ).loc main_arg6)) hq hk hqd hkd hop hob)

end Cert.KernelIdeal.Whole

end
-- ==== Proof.RefRead.lean ====
/-
  The reference program read at an index is the two-pass form.

  Each stage of the reference is read at an index built from its coordinates: the row sums give the mean and the
  variance of a row, the reciprocal square root of the floored variance scales the centred row, the scale and
  shift act channel by channel, and the contraction against the projection weight followed by the bias gives the
  64 features of a row. The pair stage reads the first 32 features of row j and the last 32 of row i, joins their
  products and differences on the last axis, and contracts the 64 joined features against the output weight.
-/
import proofs.«162133_j3453153706645_2_alg».proof.Proof.Gen.ReferenceIdeal.Read
import proofs.«162133_j3453153706645_2_alg».proof.Proof.Spec
import Idealize.ShloMosaic.Lib.Pipeline.Value
import Idealize.ShloMosaic.Lib.ValueIdx
import Idealize.ShloMosaic.PureOps.Ideal.Laws

noncomputable section

namespace Cert.RefRead

open Cert.ReferenceIdeal Cert.ReferenceIdeal.Gen Cert.ReferenceIdeal.Read Idealize.ShloMosaic Idealize.ShloMosaic.ValueIdx
open scoped BigOperators

variable (x0 : (⟨S1x1024x1024, .f32⟩ : BufTy).Contents (Elt Ideal))
  (x1 x2 : (⟨S1024, .f32⟩ : BufTy).Contents (Elt Ideal))
  (x3 : (⟨S64x1024, .f32⟩ : BufTy).Contents (Elt Ideal))
  (x4 : (⟨S64, .f32⟩ : BufTy).Contents (Elt Ideal))

/-- The sum of row l. -/
theorem rowsum_apply (l : Fin 1024) :
    val_main_v0 (F := Ideal) x0 (ix2 (0 : Fin 1) l) = ∑ c : Fin 1024, x0 (ix3 (0 : Fin 1) l c) := by
  rw [val_main_v0_apply, val_main_cst_apply]
  show Ideal.ofBits .f32 0x00000000#32 + _ = _
  rw [Ideal.ofBits_zero_f32, zero_add]
  refine Finset.sum_congr rfl fun c _ => congrArg x0 ?_
  exact funext fun a => Fin.ext (by match a with | ⟨0, _⟩ => rfl | ⟨1, _⟩ => rfl | ⟨2, _⟩ => rfl)

/-- The mean of row l. -/
theorem mean_apply (l : Fin 1024) :
    val_main_v3 (F := Ideal) x0 (ix3 (0 : Fin 1) l (0 : Fin 1)) = Cert.PairSpec.mean x0 l := by
  rw [val_main_v3_apply, val_main_v1_apply, val_main_v2_apply, val_main_cst_0_apply]
  rw [show idx_main_v1 (ix3 (0 : Fin 1) l (0 : Fin 1)) = ix2 (0 : Fin 1) l from
    funext fun a => Fin.ext (by match a with | ⟨0, _⟩ => rfl | ⟨1, _⟩ => rfl), rowsum_apply]
  rfl

/-- Row l's centred entry c (the copy that is squared). -/
theorem cen5_apply (l c : Fin 1024) :
    val_main_v5 (F := Ideal) x0 (ix3 (0 : Fin 1) l c) = Cert.PairSpec.cen x0 l c := by
  rw [val_main_v5_apply, val_main_v4_apply]
  rw [show idx_main_v4 (ix3 (0 : Fin 1) l c) = ix3 (0 : Fin 1) l (0 : Fin 1) from
    funext fun a => Fin.ext (by match a with | ⟨0, _⟩ => rfl | ⟨1, _⟩ => rfl | ⟨2, _⟩ => rfl), mean_apply]
  rfl

/-- Row l's centred entry c (the copy that is scaled). -/
theorem cen12_apply (l c : Fin 1024) :
    val_main_v12 (F := Ideal) x0 (ix3 (0 : Fin 1) l c) = Cert.PairSpec.cen x0 l c := by
  rw [val_main_v12_apply, val_main_v11_apply]
  rw [show idx_main_v11 (ix3 (0 : Fin 1) l c) = ix3 (0 : Fin 1) l (0 : Fin 1) from
    funext fun a => Fin.ext (by match a with | ⟨0, _⟩ => rfl | ⟨1, _⟩ => rfl | ⟨2, _⟩ => rfl), mean_apply]
  rfl

/-- The sum of the squares of row l's centred entries. -/
theorem sqsum_apply (l : Fin 1024) :
    val_main_v7 (F := Ideal) x0 (ix2 (0 : Fin 1) l)
      = ∑ c : Fin 1024, Cert.PairSpec.cen x0 l c * Cert.PairSpec.cen x0 l c := by
  rw [val_main_v7_apply, val_main_cst_1_apply]
  show Ideal.ofBits .f32 0x00000000#32 + _ = _
  rw [Ideal.ofBits_zero_f32, zero_add]
  refine Finset.sum_congr rfl fun c _ => ?_
  rw [show idx_main_v7 (ix2 (0 : Fin 1) l) c = ix3 (0 : Fin 1) l c from
    funext fun a => Fin.ext (by match a with | ⟨0, _⟩ => rfl | ⟨1, _⟩ => rfl | ⟨2, _⟩ => rfl), val_main_v6_apply, cen5_apply]
  rfl

/-- The variance of row l. -/
theorem var_apply (l : Fin 1024) :
    val_main_v10 (F := Ideal) x0 (ix3 (0 : Fin 1) l (0 : Fin 1)) = Cert.PairSpec.var x0 l := by
  rw [val_main_v10_apply, val_main_v8_apply, val_main_v9_apply, val_main_cst_2_apply]
  rw [show idx_main_v8 (ix3 (0 : Fin 1) l (0 : Fin 1)) = ix2 (0 : Fin 1) l from
    funext fun a => Fin.ext (by match a with | ⟨0, _⟩ => rfl | ⟨1, _⟩ => rfl), sqsum_apply]
  rfl

/-- The reciprocal standard deviation of row l. -/
theorem inv_apply (l : Fin 1024) :
    val_main_v15 (F := Ideal) x0 (ix3 (0 : Fin 1) l (0 : Fin 1)) = Cert.PairSpec.inv x0 l := by
  rw [val_main_v15_apply, val_main_v14_apply, var_apply, val_main_v13_apply, val_main_cst_3_apply]
  rfl

/-- The normalised, scaled and shifted entry c of row l. -/
theorem norm_apply (l c : Fin 1024) :
    val_main_v23 (F := Ideal) x0 x1 x2 (ix3 (0 : Fin 1) l c) = Cert.PairSpec.norm x0 x1 x2 l c := by
  rw [val_main_v23_apply, val_main_v20_apply, val_main_v17_apply, val_main_v16_apply, val_main_v19_apply,
    val_main_v18_apply, val_main_v22_apply, val_main_v21_apply, cen12_apply]
  rw [show idx_main_v16 (ix3 (0 : Fin 1) l c) = ix3 (0 : Fin 1) l (0 : Fin 1) from
    funext fun a => Fin.ext (by match a with | ⟨0, _⟩ => rfl | ⟨1, _⟩ => rfl | ⟨2, _⟩ => rfl), inv_apply]
  rw [show idx_main_v18 (idx_main_v19 (ix3 (0 : Fin 1) l c)) = ix1 c from
    funext fun a => Fin.ext (by match a with | ⟨0, _⟩ => rfl)]
  rw [show idx_main_v21 (idx_main_v22 (ix3 (0 : Fin 1) l c)) = ix1 c from
    funext fun a => Fin.ext (by match a with | ⟨0, _⟩ => rfl)]
  rfl

/-- Feature d of row l after the projection. -/
theorem proj_apply (l : Fin 1024) (d : Fin 64) :
    val_main_v27 (F := Ideal) x0 x1 x2 x3 x4 (ix3 (0 : Fin 1) l d) = Cert.PairSpec.proj x0 x1 x2 x3 x4 l d := by
  rw [val_main_v27_apply, val_main_v24_apply, val_main_v26_apply, val_main_v25_apply]
  rw [show idx_main_v25 (idx_main_v26 (ix3 (0 : Fin 1) l d)) = ix1 d from
    funext fun a => Fin.ext (by match a with | ⟨0, _⟩ => rfl)]
  unfold Cert.PairSpec.proj
  refine congrArg (· + x4 (ix1 d)) (Finset.sum_congr rfl fun c _ => ?_)
  rw [show lidx_main_v24 (ix3 (0 : Fin 1) l d) c = ix3 (0 : Fin 1) l c from
    funext fun a => Fin.ext (by match a with | ⟨0, _⟩ => rfl | ⟨1, _⟩ => rfl | ⟨2, _⟩ => rfl)]
  rw [show ridx_main_v24 (ix3 (0 : Fin 1) l d) c = ix2 d c from
    funext fun a => Fin.ext (by match a with | ⟨0, _⟩ => rfl | ⟨1, _⟩ => rfl), norm_apply]

/-- The first 32 features of row l. -/
theorem q_apply (l : Fin 1024) (e : Fin 32) :
    val_main_v28 (F := Ideal) x0 x1 x2 x3 x4 (ix3 (0 : Fin 1) l e) = Cert.PairSpec.qv x0 x1 x2 x3 x4 l e := by
  rw [val_main_v28_apply]
  rw [show idx_main_v28 (ix3 (0 : Fin 1) l e) = ix3 (0 : Fin 1) l (⟨e.val, by omega⟩ : Fin 64) from
    funext fun a => Fin.ext (by match a with | ⟨0, _⟩ => rfl | ⟨1, _⟩ => rfl | ⟨2, _⟩ => rfl), proj_apply]
  rfl

/-- The last 32 features of row l. -/
theorem k_apply (l : Fin 1024) (e : Fin 32) :
    val_main_v29 (F := Ideal) x0 x1 x2 x3 x4 (ix3 (0 : Fin 1) l e) = Cert.PairSpec.kv x0 x1 x2 x3 x4 l e := by
  rw [val_main_v29_apply]
  rw [show idx_main_v29 (ix3 (0 : Fin 1) l e) = ix3 (0 : Fin 1) l (⟨32 + e.val, by omega⟩ : Fin 64) from
    funext fun a => Fin.ext (by match a with | ⟨0, _⟩ => rfl | ⟨1, _⟩ => rfl | ⟨2, _⟩ => rfl), proj_apply]
  rfl

/-- The product of row j's q feature e and row i's k feature e. -/
theorem prod_apply (i j : Fin 1024) (e : Fin 32) :
    val_main_v34 (F := Ideal) x0 x1 x2 x3 x4 (ix4 (0 : Fin 1) i j e)
      = Cert.PairSpec.qv x0 x1 x2 x3 x4 j e * Cert.PairSpec.kv x0 x1 x2 x3 x4 i e := by
  rw [val_main_v34_apply, val_main_v32_apply, val_main_v30_apply, val_main_v33_apply, val_main_v31_apply]
  rw [show idx_main_v30 (idx_main_v32 (ix4 (0 : Fin 1) i j e)) = ix3 (0 : Fin 1) j e from
    funext fun a => Fin.ext (by match a with | ⟨0, _⟩ => rfl | ⟨1, _⟩ => rfl | ⟨2, _⟩ => rfl), q_apply]
  rw [show idx_main_v31 (idx_main_v33 (ix4 (0 : Fin 1) i j e)) = ix3 (0 : Fin 1) i e from
    funext fun a => Fin.ext (by match a with | ⟨0, _⟩ => rfl | ⟨1, _⟩ => rfl | ⟨2, _⟩ => rfl), k_apply]
  rfl

/-- The difference of row j's q feature e and row i's k feature e. -/
theorem diff_apply (i j : Fin 1024) (e : Fin 32) :
    val_main_v39 (F := Ideal) x0 x1 x2 x3 x4 (ix4 (0 : Fin 1) i j e)
      = Cert.PairSpec.qv x0 x1 x2 x3 x4 j e - Cert.PairSpec.kv x0 x1 x2 x3 x4 i e := by
  rw [val_main_v39_apply, val_main_v37_apply, val_main_v35_apply, val_main_v38_apply, val_main_v36_apply]
  rw [show idx_main_v35 (idx_main_v37 (ix4 (0 : Fin 1) i j e)) = ix3 (0 : Fin 1) j e from
    funext fun a => Fin.ext (by match a with | ⟨0, _⟩ => rfl | ⟨1, _⟩ => rfl | ⟨2, _⟩ => rfl), q_apply]
  rw [show idx_main_v36 (idx_main_v38 (ix4 (0 : Fin 1) i j e)) = ix3 (0 : Fin 1) i e from
    funext fun a => Fin.ext (by match a with | ⟨0, _⟩ => rfl | ⟨1, _⟩ => rfl | ⟨2, _⟩ => rfl), k_apply]
  rfl

/-- The joined feature d of the pair (i, j): a product for d below 32, a difference from 32 on. -/
theorem joined_apply (i j : Fin 1024) (d : Fin 64) :
    val_main_v40 (F := Ideal) x0 x1 x2 x3 x4 (ix4 (0 : Fin 1) i j d)
      = Cert.PairSpec.joined (Cert.PairSpec.qv x0 x1 x2 x3 x4) (Cert.PairSpec.kv x0 x1 x2 x3 x4) i j d := by
  unfold val_main_v40 Cert.PairSpec.joined
  by_cases h : d.val < 32
  · rw [dif_pos h]
    refine (concatenate_pair_apply_left _ _ _ concatenates_S1x1024x1024x32_S1x1024x1024x32_S1x1024x1024x64_d3
      (ix4 (0 : Fin 1) i j d) rfl (ix4 (0 : Fin 1) i j (⟨d.val, h⟩ : Fin 32)) (fun b => by
        match b with | ⟨0, _⟩ => rfl | ⟨1, _⟩ => rfl | ⟨2, _⟩ => rfl | ⟨3, _⟩ => rfl)).trans ?_
    exact prod_apply x0 x1 x2 x3 x4 i j ⟨d.val, h⟩
  · rw [dif_neg h]
    refine (concatenate_pair_apply_right _ _ _ concatenates_S1x1024x1024x32_S1x1024x1024x32_S1x1024x1024x64_d3
      (ix4 (0 : Fin 1) i j d) rfl rfl (ix4 (0 : Fin 1) i j (⟨d.val - 32, by omega⟩ : Fin 32)) (fun b => by
        match b with
        | ⟨0, _⟩ => exact fun _ => rfl
        | ⟨1, _⟩ => exact fun _ => rfl
        | ⟨2, _⟩ => exact fun _ => rfl
        | ⟨3, _⟩ => exact fun hne => absurd rfl hne)
      (by show d.val - 32 + 32 = d.val; omega)).trans ?_
    exact diff_apply x0 x1 x2 x3 x4 i j ⟨d.val - 32, by omega⟩

/-- The reference's output at (i, j, z) is the two-pass form. -/
theorem ref_apply (x5 : (⟨S128x64, .f32⟩ : BufTy).Contents (Elt Ideal))
    (x6 : (⟨S128, .f32⟩ : BufTy).Contents (Elt Ideal)) (i j : Fin 1024) (z : Fin 128) :
    val_main_v44 (F := Ideal) x0 x1 x2 x3 x4 x5 x6 (ix4 (0 : Fin 1) i j z)
      = Cert.PairSpec.outJoined (Cert.PairSpec.qv x0 x1 x2 x3 x4) (Cert.PairSpec.kv x0 x1 x2 x3 x4) x5 x6 i j z := by
  rw [val_main_v44_apply, val_main_v41_apply, val_main_v43_apply, val_main_v42_apply]
  rw [show idx_main_v42 (idx_main_v43 (ix4 (0 : Fin 1) i j z)) = ix1 z from
    funext fun a => Fin.ext (by match a with | ⟨0, _⟩ => rfl)]
  unfold Cert.PairSpec.outJoined
  refine congrArg (· + x6 (ix1 z)) (Finset.sum_congr rfl fun d _ => ?_)
  rw [show lidx_main_v41 (ix4 (0 : Fin 1) i j z) d = ix4 (0 : Fin 1) i j d from
    funext fun a => Fin.ext (by match a with | ⟨0, _⟩ => rfl | ⟨1, _⟩ => rfl | ⟨2, _⟩ => rfl | ⟨3, _⟩ => rfl)]
  rw [show ridx_main_v41 (ix4 (0 : Fin 1) i j z) d = ix2 z d from
    funext fun a => Fin.ext (by match a with | ⟨0, _⟩ => rfl | ⟨1, _⟩ => rfl), joined_apply]

end Cert.RefRead

end
-- ==== Proof.LibERealSums.lean ====
/-
  Finite sums and maxima of real numbers inside the extended reals.

  The coercion of the reals into the extended reals carries a finite sum to the sum and a maximum to the maximum;
  and folding `max` from `-∞` over a nonempty finite family of reals gives a real. These are what turns a row
  statistic of finite inputs (a sum, a maximum, a log-sum-exp) into a real number, where the extended reals'
  failures of distributivity and cancellation at the infinities cannot occur.
-/
import Mathlib.Data.EReal.Basic
import Mathlib.Algebra.BigOperators.Group.Finset.Basic
import Mathlib.Data.Finset.Fold

noncomputable section

open scoped BigOperators

namespace Cert.Lib.ERealSums

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of their maximum. -/
theorem coe_max_real (a b : ℝ) : max (a : EReal) (b : EReal) = ((max a b : ℝ) : EReal) :=
  (EReal.coe_strictMono.monotone.map_max).symm

/-- Folding `max` from `-∞` over a nonempty family of reals gives a real. -/
theorem fold_max_real {ι : Type*} (s : Finset ι) (hs : s.Nonempty) (a : ι → ℝ) :
    ∃ M : ℝ, s.fold max ⊥ (fun i => ((a i : ℝ) : EReal)) = (M : EReal) := by
  induction hs using Finset.Nonempty.cons_induction with
  | singleton i => exact ⟨a i, by rw [Finset.fold_singleton, max_bot_right]⟩
  | cons i s hi hs ih =>
    obtain ⟨M, hM⟩ := ih
    exact ⟨max (a i) M, by rw [Finset.fold_cons, hM, coe_max_real]⟩

end Cert.Lib.ERealSums

end
-- ==== Proof.SpecLaw.lean ====
/-
  The real-number side of the pairwise feature map.

  When every argument array holds real (finite) numbers, each stage of the layer normalisation is a real number:
  sums, products and differences of reals are real; a division by 1024 is a multiplication by 1/1024; the variance
  is a sum of squares times 1/1024, hence nonnegative, so adding the positive floor makes it positive and its
  reciprocal square root is a real. Hence every projected feature, and so every q and k feature, is real.

  For real q, k and output weight the split form and the two-pass form of the output agree: the sum over the 64
  joined features splits into the 32 products and the 32 differences, and over the reals the sum of the
  differences (q − k)·w is (∑ q·w) − (∑ k·w). The output bias is added last on both sides and may be infinite.
-/
import proofs.«162133_j3453153706645_2_alg».proof.Proof.Spec
import proofs.«162133_j3453153706645_2_alg».proof.Proof.LibERealSums
import Mathlib

noncomputable section

namespace Cert.PairSpec

open Idealize.ShloMosaic Idealize.ShloMosaic.ValueIdx
open scoped BigOperators

/-! ### The two constants -/

/-- The divisor is the real number 1024. -/
theorem n1024_eq : n1024 = ((1024 : ℝ) : EReal) := by
  simp [n1024, Ideal.ofBits, Ideal.ieee, -EReal.coe_mul]; norm_num

/-- The variance floor is a positive real number. -/
theorem eps_pos : ∃ e : ℝ, 0 < e ∧ eps = (e : EReal) := by
  refine ⟨(10995116 : ℝ) * (2 : ℝ) ^ (-40 : Int), by positivity, ?_⟩
  simp [eps, Ideal.ofBits, Ideal.ieee, -EReal.coe_mul]

/-! ### Closure of the reals under the operations used -/

private theorem real_add {a b : EReal} (ha : ∃ r : ℝ, a = r) (hb : ∃ r : ℝ, b = r) : ∃ r : ℝ, a + b = r := by
  obtain ⟨r, rfl⟩ := ha; obtain ⟨s, rfl⟩ := hb; exact ⟨r + s, (EReal.coe_add r s).symm⟩

private theorem real_sub {a b : EReal} (ha : ∃ r : ℝ, a = r) (hb : ∃ r : ℝ, b = r) : ∃ r : ℝ, a - b = r := by
  obtain ⟨r, rfl⟩ := ha; obtain ⟨s, rfl⟩ := hb; exact ⟨r - s, (EReal.coe_sub r s).symm⟩

private theorem real_mul {a b : EReal} (ha : ∃ r : ℝ, a = r) (hb : ∃ r : ℝ, b = r) : ∃ r : ℝ, a * b = r := by
  obtain ⟨r, rfl⟩ := ha; obtain ⟨s, rfl⟩ := hb; exact ⟨r * s, (EReal.coe_mul r s).symm⟩

private theorem real_sum {ι : Type*} (s : Finset ι) (f : ι → EReal) (h : ∀ i, ∃ r : ℝ, f i = r) :
    ∃ r : ℝ, ∑ i ∈ s, f i = r := by
  choose fr hfr using h
  exact ⟨∑ i ∈ s, fr i, by simp only [hfr]; exact Cert.Lib.ERealSums.coe_sum_real s fr⟩

/-- Dividing by 1024 is multiplying by 1/1024. -/
private theorem div_n1024 (a : EReal) : Ideal.div a n1024 = a * (((1 / 1024 : ℝ) : ℝ) : EReal) := by
  rw [n1024_eq, Ideal.div_coe (by norm_num)]

/-! ### The layer normalisation of a real row is real -/

section LayerNorm
variable (x : (⟨3, ![1, 1024, 1024]⟩ : Shape).Idx → EReal)
  (g b : (⟨1, ![1024]⟩ : Shape).Idx → EReal)
  (W : (⟨2, ![64, 1024]⟩ : Shape).Idx → EReal) (pb : (⟨1, ![64]⟩ : Shape).Idx → EReal)

theorem mean_real (hx : ∀ i, ∃ r : ℝ, x i = r) (l : Fin 1024) : ∃ r : ℝ, mean x l = r := by
  unfold mean
  rw [div_n1024]
  exact real_mul (real_sum _ _ fun c => hx _) ⟨_, rfl⟩

theorem cen_real (hx : ∀ i, ∃ r : ℝ, x i = r) (l c : Fin 1024) : ∃ r : ℝ, cen x l c = r := by
  unfold cen
  exact real_sub (hx _) (mean_real x hx l)

/-- The variance is a nonnegative real: a sum of squares times 1/1024. -/
theorem var_real (hx : ∀ i, ∃ r : ℝ, x i = r) (l : Fin 1024) : ∃ r : ℝ, 0 ≤ r ∧ var x l = r := by
  choose cr hcr using cen_real x hx l
  refine ⟨(∑ c : Fin 1024, cr c * cr c) * (1 / 1024), ?_, ?_⟩
  · exact mul_nonneg (Finset.sum_nonneg fun c _ => mul_self_nonneg (cr c)) (by norm_num)
  · unfold var
    rw [div_n1024]
    simp only [hcr, ← EReal.coe_mul]
    rw [Cert.Lib.ERealSums.coe_sum_real, ← EReal.coe_mul]

theorem inv_real (hx : ∀ i, ∃ r : ℝ, x i = r) (l : Fin 1024) : ∃ r : ℝ, inv x l = r := by
  obtain ⟨v, hv0, hv⟩ := var_real x hx l
  obtain ⟨e, he0, he⟩ := eps_pos
  have hpos : 0 < v + e := add_pos_of_nonneg_of_pos hv0 he0
  refine ⟨(Real.sqrt (v + e))⁻¹, ?_⟩
  unfold inv
  rw [hv, he, ← EReal.coe_add, Ideal.rsqrt_coe, if_neg (not_lt.mpr hpos.le), if_neg hpos.ne']

theorem norm_real (hx : ∀ i, ∃ r : ℝ, x i = r) (hg : ∀ i, ∃ r : ℝ, g i = r) (hb : ∀ i, ∃ r : ℝ, b i = r)
    (l c : Fin 1024) : ∃ r : ℝ, norm x g b l c = r := by
  unfold norm
  exact real_add (real_mul (real_mul (cen_real x hx l c) (inv_real x hx l)) (hg _)) (hb _)

/-- Every projected feature of a real row is real. -/
theorem proj_real (hx : ∀ i, ∃ r : ℝ, x i = r) (hg : ∀ i, ∃ r : ℝ, g i = r) (hb : ∀ i, ∃ r : ℝ, b i = r)
    (hW : ∀ i, ∃ r : ℝ, W i = r) (hpb : ∀ i, ∃ r : ℝ, pb i = r) (l : Fin 1024) (d : Fin 64) :
    ∃ r : ℝ, proj x g b W pb l d = (r : EReal) := by
  unfold proj
  exact real_add (real_sum _ _ fun c => real_mul (norm_real x g b hx hg hb l c) (hW _)) (hpb _)

theorem qv_real (hx : ∀ i, ∃ r : ℝ, x i = r) (hg : ∀ i, ∃ r : ℝ, g i = r) (hb : ∀ i, ∃ r : ℝ, b i = r)
    (hW : ∀ i, ∃ r : ℝ, W i = r) (hpb : ∀ i, ∃ r : ℝ, pb i = r) (l : Fin 1024) (d : Fin 32) :
    ∃ r : ℝ, qv x g b W pb l d = (r : EReal) :=
  proj_real x g b W pb hx hg hb hW hpb l _

theorem kv_real (hx : ∀ i, ∃ r : ℝ, x i = r) (hg : ∀ i, ∃ r : ℝ, g i = r) (hb : ∀ i, ∃ r : ℝ, b i = r)
    (hW : ∀ i, ∃ r : ℝ, W i = r) (hpb : ∀ i, ∃ r : ℝ, pb i = r) (l : Fin 1024) (d : Fin 32) :
    ∃ r : ℝ, kv x g b W pb l d = (r : EReal) :=
  proj_real x g b W pb hx hg hb hW hpb l _

end LayerNorm

/-! ### The split form and the two-pass form agree on reals -/

/-- A sum over 64 indices is the sum over the first 32 plus the sum over the last 32. -/
private theorem sum_fin64 {M : Type*} [AddCommMonoid M] (f : Fin 64 → M) :
    ∑ d : Fin 64, f d = ∑ d : Fin 32, f ⟨d.val, by omega⟩ + ∑ d : Fin 32, f ⟨32 + d.val, by omega⟩ :=
  Fin.sum_univ_add (a := 32) (b := 32) f

section Pair
variable (q k : Fin 1024 → Fin 32 → EReal)
  (ow : (⟨2, ![128, 64]⟩ : Shape).Idx → EReal) (ob : (⟨1, ![128]⟩ : Shape).Idx → EReal)

/-- The first 32 joined features are the products. -/
private theorem joined_lo (i j : Fin 1024) (d : Fin 32) :
    joined q k i j ⟨d.val, by omega⟩ = q j d * k i d := by
  have h : (⟨d.val, by omega⟩ : Fin 64).val < 32 := d.isLt
  unfold joined
  rw [dif_pos h]

/-- The last 32 joined features are the differences. -/
private theorem joined_hi (i j : Fin 1024) (d : Fin 32) :
    joined q k i j ⟨32 + d.val, by omega⟩ = q j d - k i d := by
  have h : ¬ (⟨32 + d.val, by omega⟩ : Fin 64).val < 32 := by simp
  unfold joined
  rw [dif_neg h]
  simp only [Nat.add_sub_cancel_left, Fin.eta]

/-- For real q, k and output weight the two forms of the output agree; the bias may be infinite. -/
theorem out_law (hq : ∀ l d, ∃ r : ℝ, q l d = r) (hk : ∀ l d, ∃ r : ℝ, k l d = r)
    (how : ∀ i, ∃ r : ℝ, ow i = r) (i j : Fin 1024) (z : Fin 128) :
    outSplit q k ow ob i j z = outJoined q k ow ob i j z := by
  choose qr hqr using hq
  choose kr hkr using hk
  choose wr hwr using how
  unfold outSplit outJoined half2
  rw [sum_fin64]
  simp only [joined_lo, joined_hi]
  congr 1
  simp only [hqr, hkr, hwr, ← EReal.coe_mul, ← EReal.coe_sub]
  simp only [Cert.Lib.ERealSums.coe_sum_real, ← EReal.coe_add, ← EReal.coe_sub]
  congr 1
  simp only [sub_mul, Finset.sum_sub_distrib]
  ring

end Pair

end Cert.PairSpec

end
-- ==== Proof.LibFiniteReal.lean ====
/-
  One element of an "every entry is finite" test, read on the extended reals.

  The test compares the absolute value `max x (-x)` with the f32 pattern of `+∞`, strictly. That pattern denotes the
  top element; the absolute value of `-∞` is `+∞`; so the test passes exactly at the reals. Also: the rank-0 shape
  has a single index (what reading a reduction over all axes at "its one result" needs).
-/
import Idealize.ShloMosaic.PureOps.Ideal.Laws

noncomputable section

namespace Cert.Lib.FiniteReal

open Idealize.ShloMosaic

/-- The f32 pattern `0x7F800000` denotes `+∞`. -/
theorem ofBits_inf_f32 : Ideal.ofBits .f32 0x7F800000#32 = ⊤ := by simp [Ideal.ofBits, Ideal.ieee]

/-- An extended real whose absolute value is strictly below the pattern of `+∞` is a real. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => exact absurd h (by simp [Ideal.cmp])
  | coe r => exact ⟨r, rfl⟩
  | top => exact absurd h (by simp [Ideal.cmp])

/-- Conversely every real passes the test. -/
theorem abs_lt_inf_of_real (r : ℝ) :
    Ideal.cmp .olt (max (r : EReal) (-(r : EReal))) (Ideal.ofBits .f32 0x7F800000#32) = 1#1 := by
  rw [ofBits_inf_f32]
  have h : max (r : EReal) (-(r : EReal)) < ⊤ := max_lt (EReal.coe_lt_top r) (by rw [← EReal.coe_neg]; exact EReal.coe_lt_top _)
  simp [Ideal.cmp, h]

/-- The rank-0 shape has exactly one index. -/
theorem subsingleton_idx0 : Subsingleton (⟨0, ![]⟩ : Shape).Idx := ⟨fun _ _ => funext fun d => d.elim0⟩

end Cert.Lib.FiniteReal

end
-- ==== Proof.PreReal.lean ====
/-
  From the precondition to "every entry of every argument array is a real number".

  The precondition is a rank-0 truth value: the conjunction of seven tests, one per argument array, each saying that
  every entry's absolute value is strictly below +∞. A conjunction of truth values that is 1 has every conjunct 1;
  a reduction by "and" over all axes that is 1 has a 1 at every index; and one entry's test, |x| < +∞ on the
  extended reals, holds exactly when x is a real. So under the precondition all seven arrays are real-valued.
-/
import proofs.«162133_j3453153706645_2_alg».proof.Pre_finite_inputs
import proofs.«162133_j3453153706645_2_alg».proof.Proof.Gen.Pre_finite_inputs
import proofs.«162133_j3453153706645_2_alg».proof.Proof.LibFiniteReal
import Idealize.ShloMosaic.Lib.ReduceAll
import Idealize.ShloMosaic.Lib.ValueIdx

noncomputable section

namespace Cert.PreReal

open Idealize.ShloMosaic Cert.Pre_finite_inputs

attribute [local instance] Cert.Lib.FiniteReal.subsingleton_idx0

/-- One entry's test: the entry's absolute value compared, strictly, with the broadcast pattern of +∞. If it is 1
    the entry is a real. -/
private theorem elem_real {s : Shape} (a : FVec Ideal s .f32)
    (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = (r : EReal) :=
  Cert.Lib.FiniteReal.real_of_abs_lt_inf (a i) h

/-- Under the precondition every entry of every argument array is a real. -/
theorem real_of_pre (a0 : FVec Ideal S1x1024x1024 .f32) (a1 a2 : FVec Ideal S1024 .f32)
    (a3 : FVec Ideal S64x1024 .f32) (a4 : FVec Ideal S64 .f32) (a5 : FVec Ideal S128x64 .f32)
    (a6 : FVec Ideal S128 .f32)
    (h : Cert.Pre_finite_inputs.fn (F := Ideal) a0 a1 a2 a3 a4 a5 a6 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) := by
  have h0 := congrFun h ValueIdx.ix0
  dsimp only [Cert.Pre_finite_inputs.fn, Cert.Pre_finite_inputs.fn_part1] at h0
  -- the six nested conjunctions, outermost first
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨fun i => elem_real a0 _ i (Host.reduce_andi_all _ _ _ _ _ e0 i),
    fun i => elem_real a1 _ i (Host.reduce_andi_all _ _ _ _ _ e1 i),
    fun i => elem_real a2 _ i (Host.reduce_andi_all _ _ _ _ _ e2 i),
    fun i => elem_real a3 _ i (Host.reduce_andi_all _ _ _ _ _ e3 i),
    fun i => elem_real a4 _ i (Host.reduce_andi_all _ _ _ _ _ e4 i),
    fun i => elem_real a5 _ i (Host.reduce_andi_all _ _ _ _ _ e5 i),
    fun i => elem_real a6 _ i (Host.reduce_andi_all _ _ _ _ _ e6 i)⟩

end Cert.PreReal

end
-- ==== Proof.lean ====
/-
  The pairwise feature kernel against its reference, on the extended reals.

  Both programs layer-normalise every row of the sequence state, project it to 64 features (32 "q" and 32 "k"), and
  combine rows i and j through the output weight. The reference joins the 32 products q·k and the 32 differences q − k
  and contracts all 64 against the weight in one pass. The kernel does it in two regions: the first also multiplies q
  and k by the second half of the weight, the second contracts only the products against the first half and adds and
  subtracts the two precomputed terms. The two agree because, for finite inputs, q and k are real numbers (the variance
  is a nonnegative real and the floor keeps the reciprocal square root finite), and on reals a sum of differences is
  the difference of the sums. The output bias may be anything: it is added last on both sides.

  The three frames are the generated ones (the reference's is its generated run with the result dropped); the
  idealization rewrote nothing, so the preservation claim is trivial.
-/
import proofs.«162133_j3453153706645_2_alg».proof.Defs
import proofs.«162133_j3453153706645_2_alg».proof.Proof.Gen.Kernel
import proofs.«162133_j3453153706645_2_alg».proof.Proof.Gen.Kernel.Frame
import proofs.«162133_j3453153706645_2_alg».proof.Proof.Gen.KernelIdeal
import proofs.«162133_j3453153706645_2_alg».proof.Proof.Gen.KernelIdeal.Frame
import proofs.«162133_j3453153706645_2_alg».proof.Proof.Gen.ReferenceIdeal
import proofs.«162133_j3453153706645_2_alg».proof.Proof.Gen.ReferenceIdeal.Run
import proofs.«162133_j3453153706645_2_alg».proof.Proof.Gen.ReferenceIdeal.Read
import proofs.«162133_j3453153706645_2_alg».proof.Proof.Gen.Pre_finite_inputs
import proofs.«162133_j3453153706645_2_alg».proof.Proof.KWhole
import proofs.«162133_j3453153706645_2_alg».proof.Proof.RefRead
import proofs.«162133_j3453153706645_2_alg».proof.Proof.SpecLaw
import proofs.«162133_j3453153706645_2_alg».proof.Proof.PreReal
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- With real inputs the reference's two-pass result is the kernel's split result, entry by entry. -/
theorem results_agree
    (a0 : FVec Ideal Cert.Pre_finite_inputs.S1x1024x1024 .f32) (a1 a2 : FVec Ideal Cert.Pre_finite_inputs.S1024 .f32)
    (a3 : FVec Ideal Cert.Pre_finite_inputs.S64x1024 .f32) (a4 : FVec Ideal Cert.Pre_finite_inputs.S64 .f32)
    (a5 : FVec Ideal Cert.Pre_finite_inputs.S128x64 .f32) (a6 : FVec Ideal Cert.Pre_finite_inputs.S128 .f32)
    (h : Cert.Pre_finite_inputs.fn (F := Ideal) a0 a1 a2 a3 a4 a5 a6 = (fun _ => 1#1)) :
    Cert.ReferenceIdeal.Read.val_main_v44 (F := Ideal) a0 a1 a2 a3 a4 a5 a6
      = fun i => Cert.PairSpec.outSplit (Cert.PairSpec.qv a0 a1 a2 a3 a4) (Cert.PairSpec.kv a0 a1 a2 a3 a4) a5 a6 (i 1) (i 2) (i 3) := by
  obtain ⟨hx, hg, hb, hW, hpb, how, -⟩ := Cert.PreReal.real_of_pre a0 a1 a2 a3 a4 a5 a6 h
  funext i
  obtain ⟨u, p, q, z, rfl⟩ : ∃ (u : Fin 1) (p q : Fin 1024) (z : Fin 128), i = ix4 u p q z := ⟨i 0, i 1, i 2, i 3, eq_ix4 i⟩
  obtain rfl : u = 0 := Subsingleton.elim _ _
  rw [Cert.RefRead.ref_apply]
  exact (Cert.PairSpec.out_law _ _ a5 a6 (Cert.PairSpec.qv_real a0 a1 a2 a3 a4 hx hg hb hW hpb)
    (Cert.PairSpec.kv_real a0 a1 a2 a3 a4 hx hg hb hW hpb) how p q z).symm

theorem algebraic : Cert.algebraic_KernelIdeal_ReferenceIdeal := by
  intro m ρ m' ρ' hpre hagree
  refine ⟨fun c => Cert.KernelIdeal.Whole.result m c, ?_, ?_⟩
  · exact (θ_run Cert.KernelIdeal.defs _ _).mono
      (fun r h c => ⟨(h c).1.trans (Cert.KernelIdeal.Whole.W3_out m ρ c), (h c).2⟩)
      (Cert.KernelIdeal.Whole.run_out m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v44_eq, e0, e1, e2, e3, e4, e5, e6]
    exact results_agree _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
